-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v147) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S128x16 : Shape := ⟨2, ![128, 16]⟩
abbrev S16 : Shape := ⟨1, ![16]⟩
abbrev S2x500000 : Shape := ⟨2, ![2, 500000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part4 {F : FTy → Type} [FloatOps F] (main_arg14 : FVec F S128x16 .f32) (main_arg15 : FVec F S16 .f32) (main_v63 : IVec S_ 1) (main_v67 : IVec S_ 1) : IVec S_ 1 :=
  let main_v68 : IVec S_ 1 := andi main_v63 main_v67
  let main_v69 : FVec F S128x16 .f32 := Host.absf main_arg14
  let main_cst_26 : FVec F S_ .f32 := constant S_ .f32 0x7F800000#32
  let main_v70 : FVec F S128x16 .f32 := broadcastInDim S128x16 ![] bcast_S_S128x16 main_cst_26
  let main_v71 : IVec S128x16 1 := cmpf .olt main_v69 main_v70
  let main_c_27 : IVec S_ 1 := constantI S_ 1 1#1
  let main_v72 : IVec S_ 1 := (fun x v => Host.reduce IntOp.andi x v reducesTo_S128x16_S_d0_1 h_S_) main_v71 main_c_27
  let main_v73 : IVec S_ 1 := andi main_v68 main_v72
  let main_v74 : FVec F S16 .f32 := Host.absf main_arg15
  let main_cst_28 : FVec F S_ .f32 := constant S_ .f32 0x7F800000#32
  let main_v75 : FVec F S16 .f32 := broadcastInDim S16 ![] bcast_S_S16 main_cst_28
  let main_v76 : IVec S16 1 := cmpf .olt main_v74 main_v75
  let main_c_29 : IVec S_ 1 := constantI S_ 1 1#1
  let main_v77 : IVec S_ 1 := (fun x v => Host.reduce IntOp.andi x v reducesTo_S16_S_d0 h_S_) main_v76 main_c_29
  let main_v78 : IVec S_ 1 := andi main_v73 main_v77
  main_v78

def fn_part3 {F : FTy → Type} [FloatOps F] (main_arg11 : FVec F S128x128 .f32) (main_arg12 : FVec F S128 .f32) (main_arg13 : FVec F S128x128 .f32) (main_arg14 : FVec F S128x16 .f32) (main_arg15 : FVec F S16 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128x128 .f32 := Host.absf main_arg11
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg13
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg14 main_arg15 main_v63 main_v67

def fn_part2 {F : FTy → Type} [FloatOps F] (main_arg7 : FVec F S128x128 .f32) (main_arg8 : FVec F S128x128 .f32) (main_arg9 : FVec F S128 .f32) (main_arg10 : FVec F S128x128 .f32) (main_arg11 : FVec F S128x128 .f32) (main_arg12 : FVec F S128 .f32) (main_arg13 : FVec F S128x128 .f32) (main_arg14 : FVec F S128x16 .f32) (main_arg15 : FVec F S16 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg10
  let main_cst_18 : FVec F S_ .f32 := constant S_ .f32 0x7F800000#32
  let main_v50 : FVec F S128x128 .f32 := broadcastInDim S128x128 ![] bcast_S_S128x128 main_cst_18
  fn_part3 (F := F) main_arg11 main_arg12 main_arg13 main_arg14 main_arg15 main_v48 main_v49 main_v50

def fn_part1 {F : FTy → Type} [FloatOps F] (main_arg4 : FVec F S128x128 .f32) (main_arg5 : FVec F S128x128 .f32) (main_arg6 : FVec F S128 .f32) (main_arg7 : FVec F S128x128 .f32) (main_arg8 : FVec F S128x128 .f32) (main_arg9 : FVec F S128 .f32) (main_arg10 : FVec F S128x128 .f32) (main_arg11 : FVec F S128x128 .f32) (main_arg12 : FVec F S128 .f32) (main_arg13 : FVec F S128x128 .f32) (main_arg14 : FVec F S128x16 .f32) (main_arg15 : FVec F S16 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S50000x128 .f32) (main_arg1 : FVec F S50000x128 .f32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S128x128 .f32) (main_arg9 : FVec F S128 .f32) (main_arg10 : FVec F S128x128 .f32) (main_arg11 : FVec F S128x128 .f32) (main_arg12 : FVec F S128 .f32) (main_arg13 : FVec F S128x128 .f32) (main_arg14 : FVec F S128x16 .f32) (main_arg15 : FVec F S16 .f32) (main_arg16 : IVec S2x500000 32) (main_arg17 : IVec S2x500000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S50000x128 : Shape := ⟨2, ![50000, 128]⟩
abbrev S128x128 : Shape := ⟨2, ![128, 128]⟩
abbrev S128 : Shape := ⟨1, ![128]⟩
abbrev S128x16 : Shape := ⟨2, ![128, 16]⟩
abbrev S16 : Shape := ⟨1, ![16]⟩
abbrev S2x500000 : Shape := ⟨2, ![2, 500000]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x128 : Shape := ⟨2, ![500000, 128]⟩
abbrev S50000 : Shape := ⟨1, ![50000]⟩
abbrev S50000x1 : Shape := ⟨2, ![50000, 1]⟩
abbrev S1x128 : Shape := ⟨2, ![1, 128]⟩
abbrev S5000x128 : Shape := ⟨2, ![5000, 128]⟩
abbrev S1x16 : Shape := ⟨2, ![1, 16]⟩
abbrev S50000x16 : Shape := ⟨2, ![50000, 16]⟩
abbrev S5000x16 : Shape := ⟨2, ![5000, 16]⟩

abbrev nBuf : Space → Nat
  | .hbm => 118
  | .vmem => 29
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128x16, .f32⟩
  | .hbm, ⟨15, _⟩ => ⟨S16, .f32⟩
  | .hbm, ⟨16, _⟩ => ⟨S2x500000, .i32⟩
  | .hbm, ⟨17, _⟩ => ⟨S2x500000, .i32⟩
  | .hbm, ⟨18, _⟩ => ⟨S1x500000, .i32⟩
  | .hbm, ⟨19, _⟩ => ⟨S500000, .i32⟩
  | .hbm, ⟨20, _⟩ => ⟨S_, .i32⟩
  | .hbm, ⟨21, _⟩ => ⟨S500000, .i32⟩
  | .hbm, ⟨22, _⟩ => ⟨S500000, .i1⟩
  | .hbm, ⟨23, _⟩ => ⟨S_, .i32⟩
  | .hbm, ⟨24, _⟩ => ⟨S500000, .i32⟩
  | .hbm, ⟨25, _⟩ => ⟨S500000, .i32⟩
  | .hbm, ⟨26, _⟩ => ⟨S500000, .i32⟩
  | .hbm, ⟨27, _⟩ => ⟨S500000x1, .i32⟩
  | .hbm, ⟨28, _⟩ => ⟨S500000x128, .f32⟩
  | .hbm, ⟨29, _⟩ => ⟨S1x500000, .i32⟩
  | .hbm, ⟨30, _⟩ => ⟨S500000, .i32⟩
  | .hbm, ⟨31, _⟩ => ⟨S_, .f32⟩
  | .hbm, ⟨32, _⟩ => ⟨S50000x128, .f32⟩
  | .hbm, ⟨33, _⟩ => ⟨S500000x1, .i32⟩
  | .hbm, ⟨34, _⟩ => ⟨S50000x128, .f32⟩
  | .hbm, ⟨35, _⟩ => ⟨S_, .f32⟩
  | .hbm, ⟨36, _⟩ => ⟨S500000, .f32⟩
  | .hbm, ⟨37, _⟩ => ⟨S1x500000, .i32⟩
  | .hbm, ⟨38, _⟩ => ⟨S500000, .i32⟩
  | .hbm, ⟨39, _⟩ => ⟨S_, .f32⟩
  | .hbm, ⟨40, _⟩ => ⟨S50000, .f32⟩
  | .hbm, ⟨41, _⟩ => ⟨S500000x1, .i32⟩
  | .hbm, ⟨42, _⟩ => ⟨S50000, .f32⟩
  | .hbm, ⟨43, _⟩ => ⟨S_, .f32⟩
  | .hbm, ⟨44, _⟩ => ⟨S50000, .f32⟩
  | .hbm, ⟨45, _⟩ => ⟨S50000, .f32⟩
  | .hbm, ⟨46, _⟩ => ⟨S50000x1, .f32⟩
  | .hbm, ⟨47, _⟩ => ⟨S50000x128, .f32⟩
  | .hbm, ⟨48, _⟩ => ⟨S50000x128, .f32⟩
  | .hbm, ⟨49, _⟩ => ⟨S1x128, .f32⟩
  | .hbm, ⟨50, _⟩ => ⟨S50000x128, .f32⟩
  | .hbm, ⟨51, _⟩ => ⟨S1x500000, .i32⟩
  | .hbm, ⟨52, _⟩ => ⟨S500000, .i32⟩
  | .hbm, ⟨53, _⟩ => ⟨S_, .i32⟩
  | .hbm, ⟨54, _⟩ => ⟨S500000, .i32⟩
  | .hbm, ⟨55, _⟩ => ⟨S500000, .i1⟩
  | .hbm, ⟨56, _⟩ => ⟨S_, .i32⟩
  | .hbm, ⟨57, _⟩ => ⟨S500000, .i32⟩
  | .hbm, ⟨58, _⟩ => ⟨S500000, .i32⟩
  | .hbm, ⟨59, _⟩ => ⟨S500000, .i32⟩
  | .hbm, ⟨60, _⟩ => ⟨S500000x1, .i32⟩
  | .hbm, ⟨61, _⟩ => ⟨S500000x128, .f32⟩
  | .hbm, ⟨62, _⟩ => ⟨S1x500000, .i32⟩
  | .hbm, ⟨63, _⟩ => ⟨S500000, .i32⟩
  | .hbm, ⟨64, _⟩ => ⟨S_, .f32⟩
  | .hbm, ⟨65, _⟩ => ⟨S50000x128, .f32⟩
  | .hbm, ⟨66, _⟩ => ⟨S500000x1, .i32⟩
  | .hbm, ⟨67, _⟩ => ⟨S50000x128, .f32⟩
  | .hbm, ⟨68, _⟩ => ⟨S_, .f32⟩
  | .hbm, ⟨69, _⟩ => ⟨S500000, .f32⟩
  | .hbm, ⟨70, _⟩ => ⟨S1x500000, .i32⟩
  | .hbm, ⟨71, _⟩ => ⟨S500000, .i32⟩
  | .hbm, ⟨72, _⟩ => ⟨S_, .f32⟩
  | .hbm, ⟨73, _⟩ => ⟨S50000, .f32⟩
  | .hbm, ⟨74, _⟩ => ⟨S500000x1, .i32⟩
  | .hbm, ⟨75, _⟩ => ⟨S50000, .f32⟩
  | .hbm, ⟨76, _⟩ => ⟨S_, .f32⟩
  | .hbm, ⟨77, _⟩ => ⟨S50000, .f32⟩
  | .hbm, ⟨78, _⟩ => ⟨S50000, .f32⟩
  | .hbm, ⟨79, _⟩ => ⟨S50000x1, .f32⟩
  | .hbm, ⟨80, _⟩ => ⟨S50000x128, .f32⟩
  | .hbm, ⟨81, _⟩ => ⟨S50000x128, .f32⟩
  | .hbm, ⟨82, _⟩ => ⟨S1x128, .f32⟩
  | .hbm, ⟨83, _⟩ => ⟨S50000x128, .f32⟩
  | .hbm, ⟨84, _⟩ => ⟨S1x500000, .i32⟩
  | .hbm, ⟨85, _⟩ => ⟨S500000, .i32⟩
  | .hbm, ⟨86, _⟩ => ⟨S_, .i32⟩
  | .hbm, ⟨87, _⟩ => ⟨S500000, .i32⟩
  | .hbm, ⟨88, _⟩ => ⟨S500000, .i1⟩
  | .hbm, ⟨89, _⟩ => ⟨S_, .i32⟩
  | .hbm, ⟨90, _⟩ => ⟨S500000, .i32⟩
  | .hbm, ⟨91, _⟩ => ⟨S500000, .i32⟩
  | .hbm, ⟨92, _⟩ => ⟨S500000, .i32⟩
  | .hbm, ⟨93, _⟩ => ⟨S500000x1, .i32⟩
  | .hbm, ⟨94, _⟩ => ⟨S500000x128, .f32⟩
  | .hbm, ⟨95, _⟩ => ⟨S1x500000, .i32⟩
  | .hbm, ⟨96, _⟩ => ⟨S500000, .i32⟩
  | .hbm, ⟨97, _⟩ => ⟨S_, .f32⟩
  | .hbm, ⟨98, _⟩ => ⟨S50000x128, .f32⟩
  | .hbm, ⟨99, _⟩ => ⟨S500000x1, .i32⟩
  | .hbm, ⟨100, _⟩ => ⟨S50000x128, .f32⟩
  | .hbm, ⟨101, _⟩ => ⟨S_, .f32⟩
  | .hbm, ⟨102, _⟩ => ⟨S500000, .f32⟩
  | .hbm, ⟨103, _⟩ => ⟨S1x500000, .i32⟩
  | .hbm, ⟨104, _⟩ => ⟨S500000, .i32⟩
  | .hbm, ⟨105, _⟩ => ⟨S_, .f32⟩
  | .hbm, ⟨106, _⟩ => ⟨S50000, .f32⟩
  | .hbm, ⟨107, _⟩ => ⟨S500000x1, .i32⟩
  | .hbm, ⟨108, _⟩ => ⟨S50000, .f32⟩
  | .hbm, ⟨109, _⟩ => ⟨S_, .f32⟩
  | .hbm, ⟨110, _⟩ => ⟨S50000, .f32⟩
  | .hbm, ⟨111, _⟩ => ⟨S50000, .f32⟩
  | .hbm, ⟨112, _⟩ => ⟨S50000x1, .f32⟩
  | .hbm, ⟨113, _⟩ => ⟨S50000x128, .f32⟩
  | .hbm, ⟨114, _⟩ => ⟨S50000x128, .f32⟩
  | .hbm, ⟨115, _⟩ => ⟨S1x128, .f32⟩
  | .hbm, ⟨116, _⟩ => ⟨S1x16, .f32⟩
  | .hbm, ⟨117, _⟩ => ⟨S50000x16, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S1x128, .f32⟩
  | .local _ .vmem, ⟨24, _⟩ => ⟨S128x128, .f32⟩
  | .local _ .vmem, ⟨25, _⟩ => ⟨S128x16, .f32⟩
  | .local _ .vmem, ⟨26, _⟩ => ⟨S1x16, .f32⟩
  | .local _ .vmem, ⟨27, _⟩ => ⟨S5000x16, .f32⟩
  | .local _ .vmem, ⟨28, _⟩ => ⟨S5000x16, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_c : Ref sig .tc := ⟨.hbm, 20, rfl⟩
abbrev main_v2 : Ref sig .tc := ⟨.hbm, 21, rfl⟩
abbrev main_v3 : Ref sig .tc := ⟨.hbm, 22, rfl⟩
abbrev main_c_0 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_1 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_cst_2 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_cst_3 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_c_4 : Ref sig .tc := ⟨.hbm, 53, rfl⟩
abbrev main_v29 : Ref sig .tc := ⟨.hbm, 54, rfl⟩
abbrev main_v30 : Ref sig .tc := ⟨.hbm, 55, rfl⟩
abbrev main_c_5 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_6 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_7 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_8 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_9 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_c_10 : Ref sig .tc := ⟨.hbm, 86, rfl⟩
abbrev main_v56 : Ref sig .tc := ⟨.hbm, 87, rfl⟩
abbrev main_v57 : Ref sig .tc := ⟨.hbm, 88, rfl⟩
abbrev main_c_11 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_12 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_cst_13 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_cst_14 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_cst_15 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg7_0 : Ref sig .tc := ⟨.vmem, 27, rfl⟩
abbrev cc2_stg7_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem7_0 : DmaSem sig := 27
abbrev cc2_sem7_1 : DmaSem sig := 28

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x16 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x16 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x16 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S2x500000_S1x500000_0_0 : S2x500000.Slices ![0, 0] S1x500000
  shapeCasts_S1x500000_S500000 : S1x500000.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  slices_S2x500000_S1x500000_1_0 : S2x500000.Slices ![1, 0] S1x500000
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S16_S1x16 : S16.ShapeCasts S1x16
  inb_S128x16_S128x16_0_0 : ∀ a, (![0, 0] : Fin 2 → Nat) a + S128x16.size a ≤ S128x16.size a
  h_S128x16 : 0 < S128x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S5000x16_S5000x16_0_0 : ∀ a, (![0, 0] : Fin 2 → Nat) a + S5000x16.size a ≤ S5000x16.size a
  h_S5000x16 : 0 < S5000x16.numel
  gather_S50000x128_S500000x1_S500000x128_1_0_n_n_0_1_1128_wf : GatherDims.WF S50000x128 S500000x1 S500000x128 [1] [0] [] [0] [] 1 ![1, 128]
  scatter_S50000x128_S500000x1_S500000x128_1_0_0_1_wf : ScatterDims.WF S50000x128 S500000x1 S500000x128 [1] [0] [0] 1
  scatter_S50000_S500000x1_S500000_n_0_0_1_wf : ScatterDims.WF S50000 S500000x1 S500000 [] [0] [0] 1
  dot_S5000x128_S128x128_S5000x128_1_0_0_1_n_n_wf : DotDims.WF S5000x128 S128x128 S5000x128 [1] [0] [0] [1] [] []
  dot_S5000x128_S128x16_S5000x16_1_0_0_1_n_n_wf : DotDims.WF S5000x128 S128x16 S5000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x16.size a ≤ S128x16.size a
  hwx2_5 : ∀ i : grid2.Coords, EltTy.bits .f32 = 32 ∨ (Rect.block (s := S128x16) S128x16.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x16.size a ≤ S1x16.size a
  hwx2_6 : ∀ i : grid2.Coords, EltTy.bits .f32 = 32 ∨ (Rect.block (s := S1x16) S1x16.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x16.size a ≤ S50000x16.size a
  hwx2_7 : ∀ i : grid2.Coords, EltTy.bits .f32 = 32 ∨ (Rect.block (s := S50000x16) S5000x16.size (cc2_transform_7 i) (hinb2_7 i)).WholeWords (EltTy.packing .f32)

variable [Facts₀]

def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x16_S5000x16_1_0_0_1_n_n : DotDims S5000x128 S128x16 S5000x16 where
  lhsContracting := [1]
  rhsContracting := [0]
  lhsNonContracting := [0]
  rhsNonContracting := [1]
  lhsBatch := []
  rhsBatch := []
  wf := dot_S5000x128_S128x16_S5000x16_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v51) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v52) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v53) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v78) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v53) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg11) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v79) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg13) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg14) S128x16.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v80) S1x16.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v81) S5000x16.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S128x16 : Shape := ⟨2, ![128, 16]⟩
abbrev S16 : Shape := ⟨1, ![16]⟩
abbrev S2x500000 : Shape := ⟨2, ![2, 500000]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x128 : Shape := ⟨2, ![500000, 128]⟩
abbrev S50000 : Shape := ⟨1, ![50000]⟩
abbrev S50000x1 : Shape := ⟨2, ![50000, 1]⟩
abbrev S1x128 : Shape := ⟨2, ![1, 128]⟩
abbrev S50000x16 : Shape := ⟨2, ![50000, 16]⟩
abbrev S1x16 : Shape := ⟨2, ![1, 16]⟩

abbrev nBuf : Space → Nat
  | .hbm => 198
  | .vmem => 0
  | .smem => 0
  | _ => 0

abbrev hbmTy0_0 (i : Nat) : BufTy := match i % 128 with
  | 0 => ⟨S50000x128, .f32⟩
  | 1 => ⟨S50000x128, .f32⟩
  | 2 => ⟨S128x128, .f32⟩
  | 3 => ⟨S128, .f32⟩
  | 4 => ⟨S128x128, .f32⟩
  | 5 => ⟨S128x128, .f32⟩
  | 6 => ⟨S128, .f32⟩
  | 7 => ⟨S128x128, .f32⟩
  | 8 => ⟨S128x128, .f32⟩
  | 9 => ⟨S128, .f32⟩
  | 10 => ⟨S128x128, .f32⟩
  | 11 => ⟨S128x128, .f32⟩
  | 12 => ⟨S128, .f32⟩
  | 13 => ⟨S128x128, .f32⟩
  | 14 => ⟨S128x16, .f32⟩
  | 15 => ⟨S16, .f32⟩
  | 16 => ⟨S2x500000, .i32⟩
  | 17 => ⟨S2x500000, .i32⟩
  | 18 => ⟨S1x500000, .i32⟩
  | 19 => ⟨S500000, .i32⟩
  | 20 => ⟨S_, .i32⟩
  | 21 => ⟨S500000, .i32⟩
  | 22 => ⟨S500000, .i1⟩
  | 23 => ⟨S_, .i32⟩
  | 24 => ⟨S500000, .i32⟩
  | 25 => ⟨S500000, .i32⟩
  | 26 => ⟨S500000, .i32⟩
  | 27 => ⟨S500000x1, .i32⟩
  | 28 => ⟨S500000x128, .f32⟩
  | 29 => ⟨S1x500000, .i32⟩
  | 30 => ⟨S500000, .i32⟩
  | 31 => ⟨S_, .f32⟩
  | 32 => ⟨S50000x128, .f32⟩
  | 33 => ⟨S500000x1, .i32⟩
  | 34 => ⟨S50000x128, .f32⟩
  | 35 => ⟨S_, .f32⟩
  | 36 => ⟨S500000, .f32⟩
  | 37 => ⟨S1x500000, .i32⟩
  | 38 => ⟨S500000, .i32⟩
  | 39 => ⟨S_, .f32⟩
  | 40 => ⟨S50000, .f32⟩
  | 41 => ⟨S500000x1, .i32⟩
  | 42 => ⟨S50000, .f32⟩
  | 43 => ⟨S_, .f32⟩
  | 44 => ⟨S50000, .f32⟩
  | 45 => ⟨S50000, .f32⟩
  | 46 => ⟨S50000x1, .f32⟩
  | 47 => ⟨S50000x128, .f32⟩
  | 48 => ⟨S50000x128, .f32⟩
  | 49 => ⟨S50000x128, .f32⟩
  | 50 => ⟨S1x128, .f32⟩
  | 51 => ⟨S50000x128, .f32⟩
  | 52 => ⟨S50000x128, .f32⟩
  | 53 => ⟨S50000x128, .f32⟩
  | 54 => ⟨S50000x128, .f32⟩
  | 55 => ⟨S_, .f32⟩
  | 56 => ⟨S50000x128, .f32⟩
  | 57 => ⟨S50000x128, .i1⟩
  | 58 => ⟨S_, .f32⟩
  | 59 => ⟨S50000x128, .f32⟩
  | 60 => ⟨S50000x128, .f32⟩
  | 61 => ⟨S50000x128, .f32⟩
  | 62 => ⟨S1x500000, .i32⟩
  | 63 => ⟨S500000, .i32⟩
  | 64 => ⟨S_, .i32⟩
  | 65 => ⟨S500000, .i32⟩
  | 66 => ⟨S500000, .i1⟩
  | 67 => ⟨S_, .i32⟩
  | 68 => ⟨S500000, .i32⟩
  | 69 => ⟨S500000, .i32⟩
  | 70 => ⟨S500000, .i32⟩
  | 71 => ⟨S500000x1, .i32⟩
  | 72 => ⟨S500000x128, .f32⟩
  | 73 => ⟨S1x500000, .i32⟩
  | 74 => ⟨S500000, .i32⟩
  | 75 => ⟨S_, .f32⟩
  | 76 => ⟨S50000x128, .f32⟩
  | 77 => ⟨S500000x1, .i32⟩
  | 78 => ⟨S50000x128, .f32⟩
  | 79 => ⟨S_, .f32⟩
  | 80 => ⟨S500000, .f32⟩
  | 81 => ⟨S1x500000, .i32⟩
  | 82 => ⟨S500000, .i32⟩
  | 83 => ⟨S_, .f32⟩
  | 84 => ⟨S50000, .f32⟩
  | 85 => ⟨S500000x1, .i32⟩
  | 86 => ⟨S50000, .f32⟩
  | 87 => ⟨S_, .f32⟩
  | 88 => ⟨S50000, .f32⟩
  | 89 => ⟨S50000, .f32⟩
  | 90 => ⟨S50000x1, .f32⟩
  | 91 => ⟨S50000x128, .f32⟩
  | 92 => ⟨S50000x128, .f32⟩
  | 93 => ⟨S50000x128, .f32⟩
  | 94 => ⟨S1x128, .f32⟩
  | 95 => ⟨S50000x128, .f32⟩
  | 96 => ⟨S50000x128, .f32⟩
  | 97 => ⟨S50000x128, .f32⟩
  | 98 => ⟨S50000x128, .f32⟩
  | 99 => ⟨S_, .f32⟩
  | 100 => ⟨S50000x128, .f32⟩
  | 101 => ⟨S50000x128, .i1⟩
  | 102 => ⟨S_, .f32⟩
  | 103 => ⟨S50000x128, .f32⟩
  | 104 => ⟨S50000x128, .f32⟩
  | 105 => ⟨S50000x128, .f32⟩
  | 106 => ⟨S1x500000, .i32⟩
  | 107 => ⟨S500000, .i32⟩
  | 108 => ⟨S_, .i32⟩
  | 109 => ⟨S500000, .i32⟩
  | 110 => ⟨S500000, .i1⟩
  | 111 => ⟨S_, .i32⟩
  | 112 => ⟨S500000, .i32⟩
  | 113 => ⟨S500000, .i32⟩
  | 114 => ⟨S500000, .i32⟩
  | 115 => ⟨S500000x1, .i32⟩
  | 116 => ⟨S500000x128, .f32⟩
  | 117 => ⟨S1x500000, .i32⟩
  | 118 => ⟨S500000, .i32⟩
  | 119 => ⟨S_, .f32⟩
  | 120 => ⟨S50000x128, .f32⟩
  | 121 => ⟨S500000x1, .i32⟩
  | 122 => ⟨S50000x128, .f32⟩
  | 123 => ⟨S_, .f32⟩
  | 124 => ⟨S500000, .f32⟩
  | 125 => ⟨S1x500000, .i32⟩
  | 126 => ⟨S500000, .i32⟩
  | 127 => ⟨S_, .f32⟩
  | _ => ⟨S50000x128, .f32⟩

abbrev hbmTy0_1 (i : Nat) : BufTy := match i % 128 with
  | 0 => ⟨S50000, .f32⟩
  | 1 => ⟨S500000x1, .i32⟩
  | 2 => ⟨S50000, .f32⟩
  | 3 => ⟨S_, .f32⟩
  | 4 => ⟨S50000, .f32⟩
  | 5 => ⟨S50000, .f32⟩
  | 6 => ⟨S50000x1, .f32⟩
  | 7 => ⟨S50000x128, .f32⟩
  | 8 => ⟨S50000x128, .f32⟩
  | 9 => ⟨S50000x128, .f32⟩
  | 10 => ⟨S1x128, .f32⟩
  | 11 => ⟨S50000x128, .f32⟩
  | 12 => ⟨S50000x128, .f32⟩
  | 13 => ⟨S50000x128, .f32⟩
  | 14 => ⟨S50000x128, .f32⟩
  | 15 => ⟨S_, .f32⟩
  | 16 => ⟨S50000x128, .f32⟩
  | 17 => ⟨S50000x128, .i1⟩
  | 18 => ⟨S_, .f32⟩
  | 19 => ⟨S50000x128, .f32⟩
  | 20 => ⟨S50000x128, .f32⟩
  | 21 => ⟨S50000x128, .f32⟩
  | 22 => ⟨S1x500000, .i32⟩
  | 23 => ⟨S500000, .i32⟩
  | 24 => ⟨S_, .i32⟩
  | 25 => ⟨S500000, .i32⟩
  | 26 => ⟨S500000, .i1⟩
  | 27 => ⟨S_, .i32⟩
  | 28 => ⟨S500000, .i32⟩
  | 29 => ⟨S500000, .i32⟩
  | 30 => ⟨S500000, .i32⟩
  | 31 => ⟨S500000x1, .i32⟩
  | 32 => ⟨S500000x128, .f32⟩
  | 33 => ⟨S1x500000, .i32⟩
  | 34 => ⟨S500000, .i32⟩
  | 35 => ⟨S_, .f32⟩
  | 36 => ⟨S50000x128, .f32⟩
  | 37 => ⟨S500000x1, .i32⟩
  | 38 => ⟨S50000x128, .f32⟩
  | 39 => ⟨S_, .f32⟩
  | 40 => ⟨S500000, .f32⟩
  | 41 => ⟨S1x500000, .i32⟩
  | 42 => ⟨S500000, .i32⟩
  | 43 => ⟨S_, .f32⟩
  | 44 => ⟨S50000, .f32⟩
  | 45 => ⟨S500000x1, .i32⟩
  | 46 => ⟨S50000, .f32⟩
  | 47 => ⟨S_, .f32⟩
  | 48 => ⟨S50000, .f32⟩
  | 49 => ⟨S50000, .f32⟩
  | 50 => ⟨S50000x1, .f32⟩
  | 51 => ⟨S50000x128, .f32⟩
  | 52 => ⟨S50000x128, .f32⟩
  | 53 => ⟨S50000x128, .f32⟩
  | 54 => ⟨S1x128, .f32⟩
  | 55 => ⟨S50000x128, .f32⟩
  | 56 => ⟨S50000x128, .f32⟩
  | 57 => ⟨S50000x128, .f32⟩
  | 58 => ⟨S50000x128, .f32⟩
  | 59 => ⟨S_, .f32⟩
  | 60 => ⟨S50000x128, .f32⟩
  | 61 => ⟨S50000x128, .i1⟩
  | 62 => ⟨S_, .f32⟩
  | 63 => ⟨S50000x128, .f32⟩
  | 64 => ⟨S50000x128, .f32⟩
  | 65 => ⟨S50000x128, .f32⟩
  | 66 => ⟨S50000x16, .f32⟩
  | 67 => ⟨S1x16, .f32⟩
  | 68 => ⟨S50000x16, .f32⟩
  | 69 => ⟨S50000x16, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_c : Ref sig .tc := ⟨.hbm, 20, rfl⟩
abbrev main_v2 : Ref sig .tc := ⟨.hbm, 21, rfl⟩
abbrev main_v3 : Ref sig .tc := ⟨.hbm, 22, rfl⟩
abbrev main_c_0 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_1 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_cst_2 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_cst_3 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_4 : Ref sig .tc := ⟨.hbm, 55, rfl⟩
abbrev main_v31 : Ref sig .tc := ⟨.hbm, 56, rfl⟩
abbrev main_v32 : Ref sig .tc := ⟨.hbm, 57, rfl⟩
abbrev main_cst_5 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_c_6 : Ref sig .tc := ⟨.hbm, 64, rfl⟩
abbrev main_v38 : Ref sig .tc := ⟨.hbm, 65, rfl⟩
abbrev main_v39 : Ref sig .tc := ⟨.hbm, 66, rfl⟩
abbrev main_c_7 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_8 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_cst_9 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_10 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_11 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_cst_12 : Ref sig .tc := ⟨.hbm, 99, rfl⟩
abbrev main_v67 : Ref sig .tc := ⟨.hbm, 100, rfl⟩
abbrev main_v68 : Ref sig .tc := ⟨.hbm, 101, rfl⟩
abbrev main_cst_13 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_c_14 : Ref sig .tc := ⟨.hbm, 108, rfl⟩
abbrev main_v74 : Ref sig .tc := ⟨.hbm, 109, rfl⟩
abbrev main_v75 : Ref sig .tc := ⟨.hbm, 110, rfl⟩
abbrev main_c_15 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_cst_16 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_cst_17 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_cst_18 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_cst_19 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_cst_20 : Ref sig .tc := ⟨.hbm, 143, rfl⟩
abbrev main_v103 : Ref sig .tc := ⟨.hbm, 144, rfl⟩
abbrev main_v104 : Ref sig .tc := ⟨.hbm, 145, rfl⟩
abbrev main_cst_21 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_c_22 : Ref sig .tc := ⟨.hbm, 152, rfl⟩
abbrev main_v110 : Ref sig .tc := ⟨.hbm, 153, rfl⟩
abbrev main_v111 : Ref sig .tc := ⟨.hbm, 154, rfl⟩
abbrev main_c_23 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_cst_24 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_cst_25 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_cst_26 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_cst_27 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_cst_28 : Ref sig .tc := ⟨.hbm, 187, rfl⟩
abbrev main_v139 : Ref sig .tc := ⟨.hbm, 188, rfl⟩
abbrev main_v140 : Ref sig .tc := ⟨.hbm, 189, rfl⟩
abbrev main_cst_29 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  slices_S2x500000_S1x500000_1_0 : S2x500000.Slices ![1, 0] S1x500000
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  gather_S50000x128_S500000x1_S500000x128_1_0_n_n_0_1_1128_wf : GatherDims.WF S50000x128 S500000x1 S500000x128 [1] [0] [] [0] [] 1 ![1, 128]
  scatter_S50000x128_S500000x1_S500000x128_1_0_0_1_wf : ScatterDims.WF S50000x128 S500000x1 S500000x128 [1] [0] [0] 1
  scatter_S50000_S500000x1_S500000_n_0_0_1_wf : ScatterDims.WF S50000 S500000x1 S500000 [] [0] [0] 1
  dot_S50000x128_S128x128_S50000x128_1_0_0_1_n_n_wf : DotDims.WF S50000x128 S128x128 S50000x128 [1] [0] [0] [1] [] []
  dot_S50000x128_S128x16_S50000x16_1_0_0_1_n_n_wf : DotDims.WF S50000x128 S128x16 S50000x16 [1] [0] [0] [1] [] []

variable [Facts₀]

def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x16_S50000x16_1_0_0_1_n_n : DotDims S50000x128 S128x16 S50000x16 where
  lhsContracting := [1]
  rhsContracting := [0]
  lhsNonContracting := [0]
  rhsNonContracting := [1]
  lhsBatch := []
  rhsBatch := []
  wf := dot_S50000x128_S128x16_S50000x16_1_0_0_1_n_n_wf

class Facts : Prop extends Facts₀ where

variable [Facts]
-- ==== Proof.KernelRun.lean ====
/-
  The idealized kernel's run with its result named.

  @main is three kernel calls among stretches of host operations. Every weakly fair execution terminates, nothing
  faulting, with every unscoped buffer of the core at the contents the last boundary of the run gives it: the fold of
  the host stretches and of the three calls' write-backs over the launch memory. In particular the result buffer holds
  what the third call's write-backs leave in its output array, and every argument array what it was launched with.
-/
import proofs.«119524_j9706626089208_1_alg».proof.Proof.KernelRunAll

set_option maxRecDepth 16384

noncomputable section

namespace Cert.KernelIdeal.Run

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-- The run with the result buffer and the argument arrays read: the result is what the third call leaves in its
    output array, the arguments are as launched. -/
theorem run_out : θ_run defs (onTc (τ := τ) (main (F := F))) ⟨m, fun _ => 0, ρ⟩ (fun r => ∀ c : Dev nD,
      r.2.mem ((c.tc : Thread nD τ).loc main_v81) = (dat2 (V5 m ρ) c).arrAt 7 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c =>
      ⟨(h c _ (mem_uc main_v81 (by decide))).trans (W6_arr m ρ c 7),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c),
       (h c _ (mem_uc main_arg15 (by decide))).trans (W6_main_arg15 m ρ c),
       (h c _ (mem_uc main_arg16 (by decide))).trans (W6_main_arg16 m ρ c),
       (h c _ (mem_uc main_arg17 (by decide))).trans (W6_main_arg17 m ρ c)⟩)
    (run_all m ρ)

end Cert.KernelIdeal.Run

end
-- ==== Proof.LibPlainDot.lean ====
/-
  A plain matrix product read at an index, on the extended reals.

  For the dimension numbers `<[1], [0], [0], [1]>` with no batch axis (`DotDims.plain M K N`, or any record equal to
  it: an `M×K` left operand, a `K×N` right operand, the left's second axis contracted with the right's first) the
  entry `(a, b)` of the product is `∑ k, l[a,k] · r[k,b]`. Two operations compute it at the exact instance: a
  `tpu.matmul` into a zero accumulator and the host's `dot_general`. Both are stated here as equalities of whole
  arrays with one function, `rowsByCols l r`, so that a product computed block of rows by block of rows and the same
  product computed at once are compared through one name.
-/
import Idealize.ShloMosaic.Lib.ValueIdx
import Idealize.ShloMosaic.PureOps.Ideal.Laws

noncomputable section

namespace Cert.Lib.PlainDot

open Idealize.ShloMosaic Idealize.ShloMosaic.ValueIdx

/-- The product of an `M×K` array by a `K×N` array, index by index: entry `(a, b)` is `∑ k, l[a,k] · r[k,b]`. -/
def rowsByCols {M K N : ℕ} (l : (⟨2, ![M, K]⟩ : Shape).Idx → EReal) (r : (⟨2, ![K, N]⟩ : Shape).Idx → EReal) :
    (⟨2, ![M, N]⟩ : Shape).Idx → EReal :=
  fun j => ∑ k : Fin K, l (ix2 (j 0) k) * r (ix2 k (j 1))

theorem rowsByCols_apply {M K N : ℕ} (l : (⟨2, ![M, K]⟩ : Shape).Idx → EReal) (r : (⟨2, ![K, N]⟩ : Shape).Idx → EReal)
    (j : (⟨2, ![M, N]⟩ : Shape).Idx) : rowsByCols l r j = ∑ k : Fin K, l (ix2 (j 0) k) * r (ix2 k (j 1)) := rfl

/-- The left operand's index at result index `j` and contraction position `q`: row `j 0` … -/
theorem lhsIdx_row {M K N : ℕ} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
/-- … and column the contraction position's one coordinate. -/
theorem lhsIdx_col {M K N : ℕ} (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- The right operand's index: row the contraction position's one coordinate … -/
theorem rhsIdx_row {M K N : ℕ} (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and column `j 1`. -/
theorem rhsIdx_col {M K N : ℕ} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the record's one-axis contraction shape, with the operands read at the record's operand indices, is
    the sum over `k < K` of `l[a,k] · r[k,b]`: the contraction index is its one coordinate, the left index at `(j, k)`
    is `(j 0, k)` and the right index is `(k, j 1)`. -/
theorem contr_sum {M K N : ℕ} (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ q : d.contr.Idx, l (d.lhsIdx j q) * r (d.rhsIdx j q) = rowsByCols l r j := by
  subst hd
  unfold rowsByCols
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhsIdx_row j _
      | ⟨1, _⟩ => exact (lhsIdx_col j _).trans hk)
  have er : (DotDims.plain M K N).rhsIdx j ((contrEquiv1 (DotDims.plain M K N) K rfl rfl).symm k) = ix2 k (j 1) :=
    funext fun a => Fin.ext (by
      match a with
      | ⟨0, _⟩ => exact (rhsIdx_row j _).trans hk
      | ⟨1, _⟩ => exact rhsIdx_col j _)
  exact congrArg₂ (· * ·) (congrArg l el) (congrArg r er)

/-- A `tpu.matmul` with plain dimension numbers into the zero accumulator is the product, whatever the operands'
    float formats and the precision attribute. -/
theorem matmul_zero_eq {M K N : ℕ} {φ₁ φ₂ : FTy} (d : DotDims ⟨2, ![M, K]⟩ ⟨2, ![K, N]⟩ ⟨2, ![M, N]⟩)
    (hd : d = DotDims.plain M K N) (prec : Option ContractPrecision)
    (l : FVec Ideal ⟨2, ![M, K]⟩ φ₁) (r : FVec Ideal ⟨2, ![K, N]⟩ φ₂) :
    FloatOps.matmul d prec l r (constant (F := Ideal) ⟨2, ![M, N]⟩ .f32 0x00000000#32) = rowsByCols l r :=
  funext fun j => (Ideal.matmul_constant_zero_apply d prec l r j).trans (contr_sum d hd l r j)

/-- The host's `dot_general` with plain dimension numbers is the product, whatever the precision and the schedule. -/
theorem dotGeneral_eq {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (l : FVec Ideal ⟨2, ![M, K]⟩ φ₁) (r : FVec Ideal ⟨2, ![K, N]⟩ φ₂) :
    FloatOps.dotGeneral d prec sched l r = rowsByCols l r :=
  funext fun j => (Ideal.dotGeneral_apply d prec sched l r j).trans (contr_sum d hd l r j)

/-- Two products agree at two indices when their operands agree along the row and the column read there: if
    `l'[j' 0, k] = l[j 0, k]` and `r'[k, j' 1] = r[k, j 1]` for every `k`, then `(l' · r')[j'] = (l · r)[j]`. In
    particular rows of a product are the product of the rows: with `l'` a block of rows of `l` and `r' = r`, the
    block's product at `(p, b)` is the whole product at `(o + p, b)`. -/
theorem rowsByCols_congr {M M' K N N' : ℕ} (l : (⟨2, ![M, K]⟩ : Shape).Idx → EReal) (r : (⟨2, ![K, N]⟩ : Shape).Idx → EReal)
    (l' : (⟨2, ![M', K]⟩ : Shape).Idx → EReal) (r' : (⟨2, ![K, N']⟩ : Shape).Idx → EReal)
    (j' : (⟨2, ![M', N']⟩ : Shape).Idx) (j : (⟨2, ![M, N]⟩ : Shape).Idx)
    (hl : ∀ k : Fin K, l' (ix2 (j' 0) k) = l (ix2 (j 0) k)) (hr : ∀ k : Fin K, r' (ix2 k (j' 1)) = r (ix2 k (j 1))) :
    rowsByCols l' r' j' = rowsByCols l r j := by
  unfold rowsByCols
  exact Finset.sum_congr rfl fun k _ => by rw [hl k, hr k]

end Cert.Lib.PlainDot

end
-- ==== Proof.Layer.lean ====
/-
  The mathematics of one message-passing layer, on the extended reals.

  A layer takes the neighbourhood means `a` and the destination features `x` (both `n × 128`), two `128 × 128`
  weight matrices and a bias row, and returns `leaky (a · Wl + x · Wr + b)`, the bias added to every row and the
  leaky rectifier applied entry by entry. The final projection is `h · W + b` with `W` of shape `128 × 16`.
  The two programs group the three summands differently — `(a·Wl + x·Wr) + b` against `(a·Wl + b) + x·Wr` — and
  addition on the extended reals is commutative and associative, so both are one function.
-/
import Idealize.ShloMosaic.Lib.ValueIdx
import Idealize.ShloMosaic.PureOps.Ideal.Laws
import proofs.«119524_j9706626089208_1_alg».proof.Proof.LibPlainDot

noncomputable section

namespace Cert.Sage

open Idealize.ShloMosaic Idealize.ShloMosaic.ValueIdx Cert.Lib.PlainDot

/-- The leaky rectifier: `x` where `x > 0`, and otherwise `x` scaled by the slope, the f32 word `0x3C23D70A`. -/
def leaky (x : EReal) : EReal :=
  Scalar.select (Ideal.cmp .ogt x (Ideal.ofBits .f32 0x00000000#32)) x (Ideal.ofBits .f32 0x3C23D70A#32 * x)

/-- One layer: entry `(p, q)` is `leaky ((∑ k, a[p,k]·Wl[k,q] + ∑ k, x[p,k]·Wr[k,q]) + b[q])`. -/
def dense {n : ℕ} (a x : (⟨2, ![n, 128]⟩ : Shape).Idx → EReal) (Wl Wr : (⟨2, ![128, 128]⟩ : Shape).Idx → EReal)
    (b : Fin 128 → EReal) : (⟨2, ![n, 128]⟩ : Shape).Idx → EReal :=
  fun j => leaky ((rowsByCols a Wl j + rowsByCols x Wr j) + b (j 1))

/-- The same layer with the bias added before the second product, as a plain jnp expression adds it. -/
def denseBiasFirst {n : ℕ} (a x : (⟨2, ![n, 128]⟩ : Shape).Idx → EReal) (Wl Wr : (⟨2, ![128, 128]⟩ : Shape).Idx → EReal)
    (b : Fin 128 → EReal) : (⟨2, ![n, 128]⟩ : Shape).Idx → EReal :=
  fun j => leaky ((rowsByCols a Wl j + b (j 1)) + rowsByCols x Wr j)

/-- The two groupings of the three summands agree: addition of extended reals is commutative and associative. -/
theorem denseBiasFirst_eq {n : ℕ} (a x : (⟨2, ![n, 128]⟩ : Shape).Idx → EReal) (Wl Wr : (⟨2, ![128, 128]⟩ : Shape).Idx → EReal)
    (b : Fin 128 → EReal) : denseBiasFirst a x Wl Wr b = dense a x Wl Wr b :=
  funext fun j => congrArg leaky (add_right_comm _ _ _)

/-- The final projection: entry `(p, q)` is `∑ k, h[p,k]·W[k,q] + b[q]`. -/
def project {n : ℕ} (h : (⟨2, ![n, 128]⟩ : Shape).Idx → EReal) (W : (⟨2, ![128, 16]⟩ : Shape).Idx → EReal)
    (b : Fin 16 → EReal) : (⟨2, ![n, 16]⟩ : Shape).Idx → EReal :=
  fun j => rowsByCols h W j + b (j 1)

/-- A layer's row `p'` depends on row `p` of the means and of the features only: a block of rows of the layer is the
    layer of the blocks of rows. -/
theorem dense_congr {n n' : ℕ} (a x : (⟨2, ![n, 128]⟩ : Shape).Idx → EReal) (a' x' : (⟨2, ![n', 128]⟩ : Shape).Idx → EReal)
    (Wl Wr : (⟨2, ![128, 128]⟩ : Shape).Idx → EReal) (b : Fin 128 → EReal)
    (j' : (⟨2, ![n', 128]⟩ : Shape).Idx) (j : (⟨2, ![n, 128]⟩ : Shape).Idx) (hq : j' 1 = j 1)
    (ha : ∀ k : Fin 128, a' (ix2 (j' 0) k) = a (ix2 (j 0) k)) (hx : ∀ k : Fin 128, x' (ix2 (j' 0) k) = x (ix2 (j 0) k)) :
    dense a' x' Wl Wr b j' = dense a x Wl Wr b j := by
  unfold dense
  rw [rowsByCols_congr a Wl a' Wl j' j ha (fun k => by rw [hq]), rowsByCols_congr x Wr x' Wr j' j hx (fun k => by rw [hq]), hq]

/-- The projection likewise, row by row. -/
theorem project_congr {n n' : ℕ} (h : (⟨2, ![n, 128]⟩ : Shape).Idx → EReal) (h' : (⟨2, ![n', 128]⟩ : Shape).Idx → EReal)
    (W : (⟨2, ![128, 16]⟩ : Shape).Idx → EReal) (b : Fin 16 → EReal)
    (j' : (⟨2, ![n', 16]⟩ : Shape).Idx) (j : (⟨2, ![n, 16]⟩ : Shape).Idx) (hq : j' 1 = j 1)
    (hh : ∀ k : Fin 128, h' (ix2 (j' 0) k) = h (ix2 (j 0) k)) :
    project h' W b j' = project h W b j := by
  unfold project
  rw [rowsByCols_congr h W h' W j' j hh (fun k => by rw [hq]), hq]

/-- The whole network over a neighbourhood-mean operator `G` (features and an edge list to means): two first layers, one
    per direction, each reading the raw features; the second layer of the source side over the first layers'
    outputs; the projection. `xs`, `xt` are the source and target features, `est`, `ets` the two edge lists. -/
def net {E : Type} (G : ((⟨2, ![50000, 128]⟩ : Shape).Idx → EReal) → E → (⟨2, ![50000, 128]⟩ : Shape).Idx → EReal)
    (xs xt : (⟨2, ![50000, 128]⟩ : Shape).Idx → EReal)
    (Wl0st Wr0st Wl0ts Wr0ts Wl1ts Wr1ts : (⟨2, ![128, 128]⟩ : Shape).Idx → EReal) (b0st b0ts b1ts : Fin 128 → EReal)
    (Wh : (⟨2, ![128, 16]⟩ : Shape).Idx → EReal) (bh : Fin 16 → EReal) (est ets : E) :
    (⟨2, ![50000, 16]⟩ : Shape).Idx → EReal :=
  project (dense (G (dense (G xs est) xt Wl0st Wr0st b0st) ets) (dense (G xt ets) xs Wl0ts Wr0ts b0ts) Wl1ts Wr1ts b1ts) Wh bh

end Cert.Sage

end
-- ==== Proof.Payload.lean ====
/-
  What each kernel body computes from the blocks it loads, on the extended reals.

  The two layer kernels load a `5000 × 128` block of means, a `5000 × 128` block of destination features, the two
  weight matrices and the bias as a `1 × 128` row, round the matrix operands to bf16 (the identity on the extended
  reals), multiply into zero accumulators, add the two products, add the bias row to every row and apply the leaky
  rectifier: the block of the layer `Sage.dense`. The last kernel does the same and then projects the rectified
  block on the `128 × 16` head and adds the head's bias row: `Sage.project` of `Sage.dense`.
-/
import proofs.«119524_j9706626089208_1_alg».proof.Proof.Gen.KernelIdeal.Skeleton
import proofs.«119524_j9706626089208_1_alg».proof.Proof.Layer
import Idealize.ShloMosaic.Lib.ValueLayout
import Idealize.ShloMosaic.Lib.Pipeline.Value

noncomputable section

namespace Cert.KernelIdeal.Body

open Cert.KernelIdeal Cert.KernelIdeal.Gen Idealize.ShloMosaic Idealize.ShloMosaic.ValueIdx Cert.Lib.PlainDot Cert.Sage

/-- The first layer kernel's stored block is the layer of its loaded blocks, the bias read off the one row. -/
theorem pay0 (v0 v3 : Vec Ideal S5000x128 .f32) (v5 v7 : Vec Ideal S128x128 .f32) (v12 : Vec Ideal S1x128 .f32) :
    k0_pay1 (F := Ideal) v0 v3 v5 v7 v12 = dense (n := 5000) v0 v3 v5 v7 (fun q => v12 (ix2 (0 : Fin 1) q)) := by
  funext j
  obtain ⟨p, q, rfl⟩ : ∃ (p : Fin 5000) (q : Fin 128), j = ix2 p q := ⟨j 0, j 1, eq_ix2 j⟩
  unfold k0_pay1
  simp only [matmul, select_apply, cmpf_apply, mulf_apply, addf_apply, broadcast_apply]
  rw [matmul_zero_eq dot_S5000x128_S128x128_S5000x128_1_0_0_1_n_n rfl, matmul_zero_eq dot_S5000x128_S128x128_S5000x128_1_0_0_1_n_n rfl,
    shapeCast_self, shapeCast_self, broadcastTo_1b_ab_apply]
  rfl

/-- The second layer kernel is the same body. -/
theorem pay1 (v0 v3 : Vec Ideal S5000x128 .f32) (v5 v7 : Vec Ideal S128x128 .f32) (v12 : Vec Ideal S1x128 .f32) :
    k1_pay1 (F := Ideal) v0 v3 v5 v7 v12 = dense (n := 5000) v0 v3 v5 v7 (fun q => v12 (ix2 (0 : Fin 1) q)) := by
  funext j
  obtain ⟨p, q, rfl⟩ : ∃ (p : Fin 5000) (q : Fin 128), j = ix2 p q := ⟨j 0, j 1, eq_ix2 j⟩
  unfold k1_pay1
  simp only [matmul, select_apply, cmpf_apply, mulf_apply, addf_apply, broadcast_apply]
  rw [matmul_zero_eq dot_S5000x128_S128x128_S5000x128_1_0_0_1_n_n rfl, matmul_zero_eq dot_S5000x128_S128x128_S5000x128_1_0_0_1_n_n rfl,
    shapeCast_self, shapeCast_self, broadcastTo_1b_ab_apply]
  rfl

/-- The last kernel's stored block: the layer of its loaded blocks, rounded to bf16 (the identity here), projected on
    the head matrix, the head's bias row added to every row. -/
theorem pay2 (v0 v3 : Vec Ideal S5000x128 .f32) (v6 v8 : Vec Ideal S128x128 .f32) (v13 : Vec Ideal S1x128 .f32)
    (v23 : Vec Ideal S128x16 .f32) (v26 : Vec Ideal S1x16 .f32) :
    k2_pay1 (F := Ideal) v0 v3 v6 v8 v13 v23 v26
      = project (n := 5000) (dense (n := 5000) v0 v3 v6 v8 (fun q => v13 (ix2 (0 : Fin 1) q))) v23 (fun q => v26 (ix2 (0 : Fin 1) q)) := by
  funext j
  obtain ⟨p, q, rfl⟩ : ∃ (p : Fin 5000) (q : Fin 16), j = ix2 p q := ⟨j 0, j 1, eq_ix2 j⟩
  unfold k2_pay1
  simp only [matmul, addf_apply]
  rw [matmul_zero_eq dot_S5000x128_S128x16_S5000x16_1_0_0_1_n_n rfl, shapeCast_self v26, broadcastTo_1b_ab_apply]
  unfold project
  refine congrArg₂ (· + ·) (rowsByCols_congr _ _ _ _ _ _ (fun k => ?_) (fun k => rfl)) rfl
  simp only [truncf_apply, select_apply, cmpf_apply, mulf_apply, addf_apply, broadcast_apply]
  rw [matmul_zero_eq dot_S5000x128_S128x128_S5000x128_1_0_0_1_n_n rfl, matmul_zero_eq dot_S5000x128_S128x128_S5000x128_1_0_0_1_n_n rfl,
    shapeCast_self v0, shapeCast_self v3, shapeCast_self v13, broadcastTo_1b_ab_apply]
  rfl

end Cert.KernelIdeal.Body

end
-- ==== Proof.Region0.lean ====
/-
  The first layer kernel's output array, whole.

  The call runs over 10 grid points; point `t` reads rows `5000 t … 5000 t + 4999` of the means and of the
  destination features, the two weight matrices and the bias row whole, and writes rows `5000 t … 5000 t + 4999`
  of the output. A row of a layer depends on the same row of the means and of the features only, so the block a
  point writes is that block of rows of the layer of the whole arrays, and the ten blocks tile the output:
  the output array ends as `Sage.dense` of the arrays the call is entered with.
-/
import proofs.«119524_j9706626089208_1_alg».proof.Proof.Gen.KernelIdeal.Frame
import proofs.«119524_j9706626089208_1_alg».proof.Proof.Payload
import Idealize.ShloMosaic.Lib.Pipeline.Value

set_option maxRecDepth 16384

noncomputable section

namespace Cert.KernelIdeal.Region0

open Cert.KernelIdeal Cert.KernelIdeal.Gen Idealize.ShloMosaic Idealize.ShloMosaic.TcCoe Idealize.ShloMosaic.ValueIdx
open Idealize.SL.Sem Cert.Lib.PlainDot Cert.Sage
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The layer of the arrays the call is entered with. -/
def layer (c : Dev nD) : S50000x128.Idx → EReal :=
  dense (n := 50000) (V c main_v24) (V c main_arg1) (V c main_arg2) (V c main_arg4) (fun q => V c main_v25 (ix2 (0 : Fin 1) q))

/-- The printed index maps over the grid: the row blocks of the means, the features and the output move with the
    point, everything else stays at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The weight matrices and the bias row are read whole at every point. -/
theorem blk2 (c : Dev nD) (t : Fin cfg0.N) : (iblk0 V c 2 t : S128x128.Idx → EReal) = V c main_arg2 := by
  obtain ⟨-, -, -, -, e0, e1, -⟩ := idx_facts t
  funext y
  show V c main_arg2 (((cfg0.win 2).blk t).view.emb y) = V c main_arg2 y
  refine congrArg _ (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega
theorem blk3 (c : Dev nD) (t : Fin cfg0.N) : (iblk0 V c 3 t : S1x128.Idx → EReal) = V c main_v25 := by
  obtain ⟨-, -, -, -, -, -, e0, e1, -⟩ := idx_facts t
  funext y
  show V c main_v25 (((cfg0.win 3).blk t).view.emb y) = V c main_v25 y
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 128 + 1 * (y 1).val = (y 1).val; omega
theorem blk4 (c : Dev nD) (t : Fin cfg0.N) : (iblk0 V c 4 t : S128x128.Idx → EReal) = V c main_arg4 := by
  obtain ⟨-, -, -, -, -, -, -, -, e0, e1, -⟩ := idx_facts t
  funext y
  show V c main_arg4 (((cfg0.win 4).blk t).view.emb y) = V c main_arg4 y
  refine congrArg _ (funext fun a => Fin.ext ?_)
  match a with
  | ⟨0, _⟩ => show win0_4.index t (0 : Fin 2) * 128 + 1 * (y 0).val = (y 0).val; omega
  | ⟨1, _⟩ => show win0_4.index t (1 : Fin 2) * 128 + 1 * (y 1).val = (y 1).val; omega

/-- Row `p` of the point's block of means is row `5000 t + p` of the means: the row the output's block has there. -/
theorem blk0 (c : Dev nD) (t : Fin cfg0.N) (j : S5000x128.Idx) (k : Fin 128) :
    (iblk0 V c 0 t : S5000x128.Idx → EReal) (ix2 (j 0) k) = V c main_v24 (ix2 ((((cfg0.win 5).blk t).view.emb j) 0) k) := by
  obtain ⟨e0, e1, -, -, -, -, -, -, -, -, e2, e3⟩ := idx_facts t
  show V c main_v24 (((cfg0.win 0).blk t).view.emb (ix2 (j 0) k)) = _
  refine congrArg _ (funext fun a => Fin.ext ?_)
  match a with
  | ⟨0, _⟩ => show win0_0.index t (0 : Fin 2) * 5000 + 1 * (j 0).val = win0_5.index t (0 : Fin 2) * 5000 + 1 * (j 0).val; omega
  | ⟨1, _⟩ => show win0_0.index t (1 : Fin 2) * 128 + 1 * k.val = k.val; omega
theorem blk1 (c : Dev nD) (t : Fin cfg0.N) (j : S5000x128.Idx) (k : Fin 128) :
    (iblk0 V c 1 t : S5000x128.Idx → EReal) (ix2 (j 0) k) = V c main_arg1 (ix2 ((((cfg0.win 5).blk t).view.emb j) 0) k) := by
  obtain ⟨-, -, e0, e1, -, -, -, -, -, -, e2, e3⟩ := idx_facts t
  show V c main_arg1 (((cfg0.win 1).blk t).view.emb (ix2 (j 0) k)) = _
  refine congrArg _ (funext fun a => Fin.ext ?_)
  match a with
  | ⟨0, _⟩ => show win0_1.index t (0 : Fin 2) * 5000 + 1 * (j 0).val = win0_5.index t (0 : Fin 2) * 5000 + 1 * (j 0).val; omega
  | ⟨1, _⟩ => show win0_1.index t (1 : Fin 2) * 128 + 1 * k.val = k.val; omega

/-- What point `t` writes back is block `t` of the layer of the whole arrays. -/
theorem flushed_eq (c : Dev nD) (t : Fin cfg0.N) :
    (dat0 V c).flushed 5 t = ((cfg0.win 5).blk t).view.read (Elt Ideal) (layer V c) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  rw [Body.pay0, blk2, blk3, blk4]
  funext j
  show dense (n := 5000) (iblk0 V c 0 t) (iblk0 V c 1 t) (V c main_arg2) (V c main_arg4) (fun q => V c main_v25 (ix2 (0 : Fin 1) q)) j
    = layer V c (((cfg0.win 5).blk t).view.emb j)
  have hq : (j 1 : Fin 128) = (((cfg0.win 5).blk t).view.emb j) 1 := Fin.ext (by
    obtain ⟨-, -, -, -, -, -, -, -, -, -, -, e3⟩ := idx_facts t
    show (j 1).val = win0_5.index t (1 : Fin 2) * 128 + 1 * (j 1).val
    omega)
  exact dense_congr _ _ _ _ _ _ _ j _ hq (fun k => blk0 V c t j k) (fun k => blk1 V c t j k)

/-- An index of the output is in point `t`'s block iff each coordinate is in the block's range on its axis. -/
theorem mem_blk (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v26).slice (win0_5.rect t)).set ↔ _
  rw [View.set_slice_whole, Rect.mem_set_unit]
  exact Iff.rfl

/-- The ten blocks tile the output: row `r` is in the block of point `r / 5000`. -/
theorem cover (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 10 := N_0
  refine ⟨⟨(i 0).val / 5000, by omega⟩, flush0_5 _, ?_⟩
  obtain ⟨-, -, -, -, -, -, -, -, -, -, e2, e3⟩ := idx_facts ⟨(i 0).val / 5000, by omega⟩
  rw [mem_blk]
  intro a
  match a with
  | ⟨0, _⟩ =>
    show win0_5.index _ (0 : Fin 2) * 5000 ≤ (i 0).val ∧ (i 0).val < win0_5.index _ (0 : Fin 2) * 5000 + 5000
    rw [e2]; show (i 0).val / 5000 * 5000 ≤ (i 0).val ∧ (i 0).val < (i 0).val / 5000 * 5000 + 5000; omega
  | ⟨1, _⟩ =>
    show win0_5.index _ (1 : Fin 2) * 128 ≤ (i 1).val ∧ (i 1).val < win0_5.index _ (1 : Fin 2) * 128 + 128
    rw [e3]; omega

/-- The output array after the call: the layer of the arrays the call is entered with. -/
theorem final (c : Dev nD) : (dat0 V c).arrAt 5 cfg0.N = layer V c :=
  (dat0 V c).arrAt_eq_of_cover 5 (layer V c) (fun t _ => flushed_eq V c t) cover

end Cert.KernelIdeal.Region0

end
-- ==== Proof.Region1.lean ====
/-
  The second layer kernel's output array, whole.

  The call runs over 10 grid points; point `t` reads rows `5000 t … 5000 t + 4999` of the means and of the
  destination features, the two weight matrices and the bias row whole, and writes rows `5000 t … 5000 t + 4999`
  of the output. A row of a layer depends on the same row of the means and of the features only, so the block a
  point writes is that block of rows of the layer of the whole arrays, and the ten blocks tile the output:
  the output array ends as `Sage.dense` of the arrays the call is entered with.
-/
import proofs.«119524_j9706626089208_1_alg».proof.Proof.Gen.KernelIdeal.Frame
import proofs.«119524_j9706626089208_1_alg».proof.Proof.Payload
import Idealize.ShloMosaic.Lib.Pipeline.Value

set_option maxRecDepth 16384

noncomputable section

namespace Cert.KernelIdeal.Region1

open Cert.KernelIdeal Cert.KernelIdeal.Gen Idealize.ShloMosaic Idealize.ShloMosaic.TcCoe Idealize.ShloMosaic.ValueIdx
open Idealize.SL.Sem Cert.Lib.PlainDot Cert.Sage
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The layer of the arrays the call is entered with. -/
def layer (c : Dev nD) : S50000x128.Idx → EReal :=
  dense (n := 50000) (V c main_v51) (V c main_arg0) (V c main_arg5) (V c main_arg7) (fun q => V c main_v52 (ix2 (0 : Fin 1) q))

/-- The printed index maps over the grid: the row blocks of the means, the features and the output move with the
    point, everything else stays at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The weight matrices and the bias row are read whole at every point. -/
theorem blk2 (c : Dev nD) (t : Fin cfg1.N) : (iblk1 V c 2 t : S128x128.Idx → EReal) = V c main_arg5 := by
  obtain ⟨-, -, -, -, e0, e1, -⟩ := idx_facts t
  funext y
  show V c main_arg5 (((cfg1.win 2).blk t).view.emb y) = V c main_arg5 y
  refine congrArg _ (funext fun a => Fin.ext ?_)
  match a with
  | ⟨0, _⟩ => show win1_2.index t (0 : Fin 2) * 128 + 1 * (y 0).val = (y 0).val; omega
  | ⟨1, _⟩ => show win1_2.index t (1 : Fin 2) * 128 + 1 * (y 1).val = (y 1).val; omega
theorem blk3 (c : Dev nD) (t : Fin cfg1.N) : (iblk1 V c 3 t : S1x128.Idx → EReal) = V c main_v52 := by
  obtain ⟨-, -, -, -, -, -, e0, e1, -⟩ := idx_facts t
  funext y
  show V c main_v52 (((cfg1.win 3).blk t).view.emb y) = V c main_v52 y
  refine congrArg _ (funext fun a => Fin.ext ?_)
  match a with
  | ⟨0, _⟩ => show win1_3.index t (0 : Fin 2) * 1 + 1 * (y 0).val = (y 0).val; omega
  | ⟨1, _⟩ => show win1_3.index t (1 : Fin 2) * 128 + 1 * (y 1).val = (y 1).val; omega
theorem blk4 (c : Dev nD) (t : Fin cfg1.N) : (iblk1 V c 4 t : S128x128.Idx → EReal) = V c main_arg7 := by
  obtain ⟨-, -, -, -, -, -, -, -, e0, e1, -⟩ := idx_facts t
  funext y
  show V c main_arg7 (((cfg1.win 4).blk t).view.emb y) = V c main_arg7 y
  refine congrArg _ (funext fun a => Fin.ext ?_)
  match a with
  | ⟨0, _⟩ => show win1_4.index t (0 : Fin 2) * 128 + 1 * (y 0).val = (y 0).val; omega
  | ⟨1, _⟩ => show win1_4.index t (1 : Fin 2) * 128 + 1 * (y 1).val = (y 1).val; omega

/-- Row `p` of the point's block of means is row `5000 t + p` of the means: the row the output's block has there. -/
theorem blk0 (c : Dev nD) (t : Fin cfg1.N) (j : S5000x128.Idx) (k : Fin 128) :
    (iblk1 V c 0 t : S5000x128.Idx → EReal) (ix2 (j 0) k) = V c main_v51 (ix2 ((((cfg1.win 5).blk t).view.emb j) 0) k) := by
  obtain ⟨e0, e1, -, -, -, -, -, -, -, -, e2, e3⟩ := idx_facts t
  show V c main_v51 (((cfg1.win 0).blk t).view.emb (ix2 (j 0) k)) = _
  refine congrArg _ (funext fun a => Fin.ext ?_)
  match a with
  | ⟨0, _⟩ => show win1_0.index t (0 : Fin 2) * 5000 + 1 * (j 0).val = win1_5.index t (0 : Fin 2) * 5000 + 1 * (j 0).val; omega
  | ⟨1, _⟩ => show win1_0.index t (1 : Fin 2) * 128 + 1 * k.val = k.val; omega
theorem blk1 (c : Dev nD) (t : Fin cfg1.N) (j : S5000x128.Idx) (k : Fin 128) :
    (iblk1 V c 1 t : S5000x128.Idx → EReal) (ix2 (j 0) k) = V c main_arg0 (ix2 ((((cfg1.win 5).blk t).view.emb j) 0) k) := by
  obtain ⟨-, -, e0, e1, -, -, -, -, -, -, e2, e3⟩ := idx_facts t
  show V c main_arg0 (((cfg1.win 1).blk t).view.emb (ix2 (j 0) k)) = _
  refine congrArg _ (funext fun a => Fin.ext ?_)
  match a with
  | ⟨0, _⟩ => show win1_1.index t (0 : Fin 2) * 5000 + 1 * (j 0).val = win1_5.index t (0 : Fin 2) * 5000 + 1 * (j 0).val; omega
  | ⟨1, _⟩ => show win1_1.index t (1 : Fin 2) * 128 + 1 * k.val = k.val; omega

/-- What point `t` writes back is block `t` of the layer of the whole arrays. -/
theorem flushed_eq (c : Dev nD) (t : Fin cfg1.N) :
    (dat1 V c).flushed 5 t = ((cfg1.win 5).blk t).view.read (Elt Ideal) (layer V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  rw [Body.pay1, blk2, blk3, blk4]
  funext j
  show dense (n := 5000) (iblk1 V c 0 t) (iblk1 V c 1 t) (V c main_arg5) (V c main_arg7) (fun q => V c main_v52 (ix2 (0 : Fin 1) q)) j
    = layer V c (((cfg1.win 5).blk t).view.emb j)
  have hq : (j 1 : Fin 128) = (((cfg1.win 5).blk t).view.emb j) 1 := Fin.ext (by
    obtain ⟨-, -, -, -, -, -, -, -, -, -, -, e3⟩ := idx_facts t
    show (j 1).val = win1_5.index t (1 : Fin 2) * 128 + 1 * (j 1).val
    omega)
  exact dense_congr _ _ _ _ _ _ _ j _ hq (fun k => blk0 V c t j k) (fun k => blk1 V c t j k)

/-- An index of the output is in point `t`'s block iff each coordinate is in the block's range on its axis. -/
theorem mem_blk (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v53).slice (win1_5.rect t)).set ↔ _
  rw [View.set_slice_whole, Rect.mem_set_unit]
  exact Iff.rfl

/-- The ten blocks tile the output: row `r` is in the block of point `r / 5000`. -/
theorem cover (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 10 := N_1
  refine ⟨⟨(i 0).val / 5000, by omega⟩, flush1_5 _, ?_⟩
  obtain ⟨-, -, -, -, -, -, -, -, -, -, e2, e3⟩ := idx_facts ⟨(i 0).val / 5000, by omega⟩
  rw [mem_blk]
  intro a
  match a with
  | ⟨0, _⟩ =>
    show win1_5.index _ (0 : Fin 2) * 5000 ≤ (i 0).val ∧ (i 0).val < win1_5.index _ (0 : Fin 2) * 5000 + 5000
    rw [e2]; show (i 0).val / 5000 * 5000 ≤ (i 0).val ∧ (i 0).val < (i 0).val / 5000 * 5000 + 5000; omega
  | ⟨1, _⟩ =>
    show win1_5.index _ (1 : Fin 2) * 128 ≤ (i 1).val ∧ (i 1).val < win1_5.index _ (1 : Fin 2) * 128 + 128
    rw [e3]; omega

/-- The output array after the call: the layer of the arrays the call is entered with. -/
theorem final (c : Dev nD) : (dat1 V c).arrAt 5 cfg1.N = layer V c :=
  (dat1 V c).arrAt_eq_of_cover 5 (layer V c) (fun t _ => flushed_eq V c t) cover

end Cert.KernelIdeal.Region1

end
-- ==== Proof.Region2.lean ====
/-
  The last kernel's output array, whole.

  The call runs over 10 grid points; point `t` reads rows `5000 t … 5000 t + 4999` of the means and of the
  destination features, the layer's two weight matrices and bias row and the head's matrix and bias row whole, and
  writes rows `5000 t … 5000 t + 4999` of the `50000 × 16` output. A row of the projected layer depends on the same
  row of the means and of the features only, so the block a point writes is that block of rows of the projected
  layer of the whole arrays, and the ten blocks tile the output.
-/
import proofs.«119524_j9706626089208_1_alg».proof.Proof.Gen.KernelIdeal.Frame
import proofs.«119524_j9706626089208_1_alg».proof.Proof.Payload
import Idealize.ShloMosaic.Lib.Pipeline.Value

set_option maxRecDepth 16384

noncomputable section

namespace Cert.KernelIdeal.Region2

open Cert.KernelIdeal Cert.KernelIdeal.Gen Idealize.ShloMosaic Idealize.ShloMosaic.TcCoe Idealize.ShloMosaic.ValueIdx
open Idealize.SL.Sem Cert.Lib.PlainDot Cert.Sage
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The rectified layer of the arrays the call is entered with … -/
def hidden (c : Dev nD) : S50000x128.Idx → EReal :=
  dense (n := 50000) (V c main_v78) (V c main_v53) (V c main_arg11) (V c main_arg13) (fun q => V c main_v79 (ix2 (0 : Fin 1) q))

/-- … and its projection on the head. -/
def layer (c : Dev nD) : S50000x16.Idx → EReal :=
  project (n := 50000) (hidden V c) (V c main_arg14) (fun q => V c main_v80 (ix2 (0 : Fin 1) q))

/-- The printed index maps over the grid: the row blocks of the means, the features and the output move with the
    point, everything else stays at block 0. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-- The weight matrices and the bias rows are read whole at every point. -/
theorem blk2 (c : Dev nD) (t : Fin cfg2.N) : (iblk2 V c 2 t : S128x128.Idx → EReal) = V c main_arg11 := by
  obtain ⟨-, -, -, -, e0, e1, -⟩ := idx_facts t
  funext y
  show V c main_arg11 (((cfg2.win 2).blk t).view.emb y) = V c main_arg11 y
  refine congrArg _ (funext fun a => Fin.ext ?_)
  match a with
  | ⟨0, _⟩ => show win2_2.index t (0 : Fin 2) * 128 + 1 * (y 0).val = (y 0).val; omega
  | ⟨1, _⟩ => show win2_2.index t (1 : Fin 2) * 128 + 1 * (y 1).val = (y 1).val; omega
theorem blk3 (c : Dev nD) (t : Fin cfg2.N) : (iblk2 V c 3 t : S1x128.Idx → EReal) = V c main_v79 := by
  obtain ⟨-, -, -, -, -, -, e0, e1, -⟩ := idx_facts t
  funext y
  show V c main_v79 (((cfg2.win 3).blk t).view.emb y) = V c main_v79 y
  refine congrArg _ (funext fun a => Fin.ext ?_)
  match a with
  | ⟨0, _⟩ => show win2_3.index t (0 : Fin 2) * 1 + 1 * (y 0).val = (y 0).val; omega
  | ⟨1, _⟩ => show win2_3.index t (1 : Fin 2) * 128 + 1 * (y 1).val = (y 1).val; omega
theorem blk4 (c : Dev nD) (t : Fin cfg2.N) : (iblk2 V c 4 t : S128x128.Idx → EReal) = V c main_arg13 := by
  obtain ⟨-, -, -, -, -, -, -, -, e0, e1, -⟩ := idx_facts t
  funext y
  show V c main_arg13 (((cfg2.win 4).blk t).view.emb y) = V c main_arg13 y
  refine congrArg _ (funext fun a => Fin.ext ?_)
  match a with
  | ⟨0, _⟩ => show win2_4.index t (0 : Fin 2) * 128 + 1 * (y 0).val = (y 0).val; omega
  | ⟨1, _⟩ => show win2_4.index t (1 : Fin 2) * 128 + 1 * (y 1).val = (y 1).val; omega
theorem blk5 (c : Dev nD) (t : Fin cfg2.N) : (iblk2 V c 5 t : S128x16.Idx → EReal) = V c main_arg14 := by
  obtain ⟨-, -, -, -, -, -, -, -, -, -, e0, e1, -⟩ := idx_facts t
  funext y
  show V c main_arg14 (((cfg2.win 5).blk t).view.emb y) = V c main_arg14 y
  refine congrArg _ (funext fun a => Fin.ext ?_)
  match a with
  | ⟨0, _⟩ => show win2_5.index t (0 : Fin 2) * 128 + 1 * (y 0).val = (y 0).val; omega
  | ⟨1, _⟩ => show win2_5.index t (1 : Fin 2) * 16 + 1 * (y 1).val = (y 1).val; omega
theorem blk6 (c : Dev nD) (t : Fin cfg2.N) : (iblk2 V c 6 t : S1x16.Idx → EReal) = V c main_v80 := by
  obtain ⟨-, -, -, -, -, -, -, -, -, -, -, -, e0, e1, -⟩ := idx_facts t
  funext y
  show V c main_v80 (((cfg2.win 6).blk t).view.emb y) = V c main_v80 y
  refine congrArg _ (funext fun a => Fin.ext ?_)
  match a with
  | ⟨0, _⟩ => show win2_6.index t (0 : Fin 2) * 1 + 1 * (y 0).val = (y 0).val; omega
  | ⟨1, _⟩ => show win2_6.index t (1 : Fin 2) * 16 + 1 * (y 1).val = (y 1).val; omega

/-- Row `p` of the point's block of means is row `5000 t + p` of the means: the row the output's block has there. -/
theorem blk0 (c : Dev nD) (t : Fin cfg2.N) (j : S5000x16.Idx) (k : Fin 128) :
    (iblk2 V c 0 t : S5000x128.Idx → EReal) (ix2 (j 0) k) = V c main_v78 (ix2 ((((cfg2.win 7).blk t).view.emb j) 0) k) := by
  obtain ⟨e0, e1, -, -, -, -, -, -, -, -, -, -, -, -, e2, e3⟩ := idx_facts t
  show V c main_v78 (((cfg2.win 0).blk t).view.emb (ix2 (j 0) k)) = _
  refine congrArg _ (funext fun a => Fin.ext ?_)
  match a with
  | ⟨0, _⟩ => show win2_0.index t (0 : Fin 2) * 5000 + 1 * (j 0).val = win2_7.index t (0 : Fin 2) * 5000 + 1 * (j 0).val; omega
  | ⟨1, _⟩ => show win2_0.index t (1 : Fin 2) * 128 + 1 * k.val = k.val; omega
theorem blk1 (c : Dev nD) (t : Fin cfg2.N) (j : S5000x16.Idx) (k : Fin 128) :
    (iblk2 V c 1 t : S5000x128.Idx → EReal) (ix2 (j 0) k) = V c main_v53 (ix2 ((((cfg2.win 7).blk t).view.emb j) 0) k) := by
  obtain ⟨-, -, e0, e1, -, -, -, -, -, -, -, -, -, -, e2, e3⟩ := idx_facts t
  show V c main_v53 (((cfg2.win 1).blk t).view.emb (ix2 (j 0) k)) = _
  refine congrArg _ (funext fun a => Fin.ext ?_)
  match a with
  | ⟨0, _⟩ => show win2_1.index t (0 : Fin 2) * 5000 + 1 * (j 0).val = win2_7.index t (0 : Fin 2) * 5000 + 1 * (j 0).val; omega
  | ⟨1, _⟩ => show win2_1.index t (1 : Fin 2) * 128 + 1 * k.val = k.val; omega

/-- What point `t` writes back is block `t` of the projected layer of the whole arrays. -/
theorem flushed_eq (c : Dev nD) (t : Fin cfg2.N) :
    (dat2 V c).flushed 7 t = ((cfg2.win 7).blk t).view.read (Elt Ideal) (layer V c) := by
  show (cfg2.win 7).cut (grid2.coords t) ((dat2 V c).after 7 t) = _
  rw [after2_7]
  unfold out2_7
  rw [View.canon_unit_zero hz]
  simp only [View.ld_unit_zero (S := S5000x128) hz, View.ld_unit_zero (S := S128x128) hz, View.ld_unit_zero (S := S1x128) hz,
    View.ld_unit_zero (S := S128x16) hz, View.ld_unit_zero (S := S1x16) hz]
  rw [Body.pay2, blk2, blk3, blk4, blk5, blk6]
  funext j
  show project (n := 5000) (dense (n := 5000) (iblk2 V c 0 t) (iblk2 V c 1 t) (V c main_arg11) (V c main_arg13) (fun q => V c main_v79 (ix2 (0 : Fin 1) q)))
      (V c main_arg14) (fun q => V c main_v80 (ix2 (0 : Fin 1) q)) j
    = layer V c (((cfg2.win 7).blk t).view.emb j)
  have hq : (j 1 : Fin 16) = (((cfg2.win 7).blk t).view.emb j) 1 := Fin.ext (by
    obtain ⟨-, -, -, -, -, -, -, -, -, -, -, -, -, -, -, e3⟩ := idx_facts t
    show (j 1).val = win2_7.index t (1 : Fin 2) * 16 + 1 * (j 1).val
    omega)
  refine project_congr _ _ _ _ j _ hq fun k => ?_
  exact dense_congr _ _ _ _ _ _ _ (ix2 (j 0) k) (ix2 ((((cfg2.win 7).blk t).view.emb j) 0) k) rfl
    (fun k' => blk0 V c t j k') (fun k' => blk1 V c t j k')

/-- An index of the output is in point `t`'s block iff each coordinate is in the block's range on its axis. -/
theorem mem_blk (t : Fin cfg2.N) (i : S50000x16.Idx) :
    i ∈ ((cfg2.win 7).blk t).view.set ↔ ∀ a : Fin 2, win2_7.index t a * S5000x16.size a ≤ (i a).val ∧ (i a).val < win2_7.index t a * S5000x16.size a + S5000x16.size a := by
  show i ∈ ((View.whole main_v81).slice (win2_7.rect t)).set ↔ _
  rw [View.set_slice_whole, Rect.mem_set_unit]
  exact Iff.rfl

/-- The ten blocks tile the output: row `r` is in the block of point `r / 5000`. -/
theorem cover (i : S50000x16.Idx) :
    ∃ t : Fin cfg2.N, (cfg2.win 7).flush t = true ∧ i ∈ ((cfg2.win 7).blk t).view.set := by
  have hi0 : (i 0).val < 50000 := (i 0).isLt
  have hi1 : (i 1).val < 16 := (i 1).isLt
  have hN : cfg2.N = 10 := N_2
  refine ⟨⟨(i 0).val / 5000, by omega⟩, flush2_7 _, ?_⟩
  obtain ⟨-, -, -, -, -, -, -, -, -, -, -, -, -, -, e2, e3⟩ := idx_facts ⟨(i 0).val / 5000, by omega⟩
  rw [mem_blk]
  intro a
  match a with
  | ⟨0, _⟩ =>
    show win2_7.index _ (0 : Fin 2) * 5000 ≤ (i 0).val ∧ (i 0).val < win2_7.index _ (0 : Fin 2) * 5000 + 5000
    rw [e2]; show (i 0).val / 5000 * 5000 ≤ (i 0).val ∧ (i 0).val < (i 0).val / 5000 * 5000 + 5000; omega
  | ⟨1, _⟩ =>
    show win2_7.index _ (1 : Fin 2) * 16 ≤ (i 1).val ∧ (i 1).val < win2_7.index _ (1 : Fin 2) * 16 + 16
    rw [e3]; omega

/-- The output array after the call: the projected layer of the arrays the call is entered with. -/
theorem final (c : Dev nD) : (dat2 V c).arrAt 7 cfg2.N = layer V c :=
  (dat2 V c).arrAt_eq_of_cover 7 (layer V c) (fun t _ => flushed_eq V c t) cover

end Cert.KernelIdeal.Region2

end
-- ==== Proof.KernelHost.lean ====
/-
  The host side of the idealized kernel: what each kernel call is entered with.

  Before each call a stretch of host operations computes the neighbourhood means the call reads (a gather along the
  edges, a scatter-add, a division by the clamped in-degree: `gm`) and recasts the bias vector as a one-row matrix;
  no host operation and no call writes an argument array, and a call's output array is not written again. Walking the
  run's boundaries back to the launch memory, the three calls are entered with: the means of the source features
  along the source-to-target edges; the means of the target features along the target-to-source edges; and the
  means of the first call's output along the target-to-source edges beside the second call's output. With the
  three calls' output arrays (`Region0`, `Region1`, `Region2`) the result is the network `Sage.net` over `gm`.
-/
import proofs.«119524_j9706626089208_1_alg».proof.Proof.Region0
import proofs.«119524_j9706626089208_1_alg».proof.Proof.Region1
import proofs.«119524_j9706626089208_1_alg».proof.Proof.Region2
import Idealize.ShloMosaic.Lib.StableHlo.Run
import Idealize.ShloMosaic.Lib.ValueLayout

set_option maxRecDepth 16384

noncomputable section

namespace Cert.KernelIdeal.Host

open Cert.KernelIdeal Cert.KernelIdeal.Gen Idealize.ShloMosaic Idealize.ShloMosaic.TcCoe Idealize.ShloMosaic.ValueIdx
open Idealize.SL.Sem Idealize.ShloMosaic.StableHlo Cert.Sage

/-- The neighbourhood means as the host computes them: the rows of `x` gathered at the edges' sources (a negative
    index wrapped once), scatter-added into the edges' destinations from zero, and divided by the in-degree (a
    scatter-add of ones) clamped below at one. -/
def gm (x : FVec Ideal S50000x128 .f32) (e : IVec S2x500000 32) : FVec Ideal S50000x128 .f32 :=
  Host.divf (F := Ideal) (Host.scatterAdd scatter_S50000x128_S500000x1_S500000x128_1_0_0_1 (broadcastInDim S50000x128 ![] bcast_S_S50000x128 (constant S_ .f32 0x00000000#32)) (broadcastInDim S500000x1 ![0] bcast_S500000_S500000x1_0 (shapeCast _ (extractStridedSlice S1x500000 ![1, 0] e slices_S2x500000_S1x500000_1_0) shapeCasts_S1x500000_S500000)) (Host.gather gather_S50000x128_S500000x1_S500000x128_1_0_n_n_0_1_1128 x (broadcastInDim S500000x1 ![0] bcast_S500000_S500000x1_0 (select (cmpi .slt (shapeCast _ (extractStridedSlice S1x500000 ![0, 0] e slices_S2x500000_S1x500000_0_0) shapeCasts_S1x500000_S500000) (broadcastInDim S500000 ![] bcast_S_S500000 (constantI S_ 32 0#32))) (addi (shapeCast _ (extractStridedSlice S1x500000 ![0, 0] e slices_S2x500000_S1x500000_0_0) shapeCasts_S1x500000_S500000) (broadcastInDim S500000 ![] bcast_S_S500000 (constantI S_ 32 50000#32))) (shapeCast _ (extractStridedSlice S1x500000 ![0, 0] e slices_S2x500000_S1x500000_0_0) shapeCasts_S1x500000_S500000))))) (broadcastInDim S50000x128 ![0, 1] bcast_S50000x1_S50000x128_0_1 (broadcastInDim S50000x1 ![0] bcast_S50000_S50000x1_0 (maximumf (Host.scatterAdd scatter_S50000_S500000x1_S500000_n_0_0_1 (broadcastInDim S50000 ![] bcast_S_S50000 (constant S_ .f32 0x00000000#32)) (broadcastInDim S500000x1 ![0] bcast_S500000_S500000x1_0 (shapeCast _ (extractStridedSlice S1x500000 ![1, 0] e slices_S2x500000_S1x500000_1_0) shapeCasts_S1x500000_S500000)) (broadcastInDim S500000 ![] bcast_S_S500000 (constant S_ .f32 0x3F800000#32))) (broadcastInDim S50000 ![] bcast_S_S50000 (constant S_ .f32 0x3F800000#32)))))

variable (m : (ℓ : Loc nD τ sig) → Buf (Elt Ideal) ℓ) (ρ : Dev nD → PrngReg) (c : Dev nD)

/-! ## The argument arrays at each boundary: as launched -/

theorem w1_arg0 : W1 m ρ c (Proc.devRef .tc main_arg0) = m ((c.tc : Thread nD τ).loc main_arg0) := by
  show StableHlo.after hostOps0 (W0 m ρ c) (Proc.devRef .tc main_arg0) = _
  after_results_simp <;> rfl
theorem w1_arg1 : W1 m ρ c (Proc.devRef .tc main_arg1) = m ((c.tc : Thread nD τ).loc main_arg1) := by
  show StableHlo.after hostOps0 (W0 m ρ c) (Proc.devRef .tc main_arg1) = _
  after_results_simp <;> rfl
theorem w1_arg2 : W1 m ρ c (Proc.devRef .tc main_arg2) = m ((c.tc : Thread nD τ).loc main_arg2) := by
  show StableHlo.after hostOps0 (W0 m ρ c) (Proc.devRef .tc main_arg2) = _
  after_results_simp <;> rfl
theorem w1_arg4 : W1 m ρ c (Proc.devRef .tc main_arg4) = m ((c.tc : Thread nD τ).loc main_arg4) := by
  show StableHlo.after hostOps0 (W0 m ρ c) (Proc.devRef .tc main_arg4) = _
  after_results_simp <;> rfl
theorem w1_arg5 : W1 m ρ c (Proc.devRef .tc main_arg5) = m ((c.tc : Thread nD τ).loc main_arg5) := by
  show StableHlo.after hostOps0 (W0 m ρ c) (Proc.devRef .tc main_arg5) = _
  after_results_simp <;> rfl
theorem w1_arg6 : W1 m ρ c (Proc.devRef .tc main_arg6) = m ((c.tc : Thread nD τ).loc main_arg6) := by
  show StableHlo.after hostOps0 (W0 m ρ c) (Proc.devRef .tc main_arg6) = _
  after_results_simp <;> rfl
theorem w1_arg7 : W1 m ρ c (Proc.devRef .tc main_arg7) = m ((c.tc : Thread nD τ).loc main_arg7) := by
  show StableHlo.after hostOps0 (W0 m ρ c) (Proc.devRef .tc main_arg7) = _
  after_results_simp <;> rfl
theorem w1_arg11 : W1 m ρ c (Proc.devRef .tc main_arg11) = m ((c.tc : Thread nD τ).loc main_arg11) := by
  show StableHlo.after hostOps0 (W0 m ρ c) (Proc.devRef .tc main_arg11) = _
  after_results_simp <;> rfl
theorem w1_arg12 : W1 m ρ c (Proc.devRef .tc main_arg12) = m ((c.tc : Thread nD τ).loc main_arg12) := by
  show StableHlo.after hostOps0 (W0 m ρ c) (Proc.devRef .tc main_arg12) = _
  after_results_simp <;> rfl
theorem w1_arg13 : W1 m ρ c (Proc.devRef .tc main_arg13) = m ((c.tc : Thread nD τ).loc main_arg13) := by
  show StableHlo.after hostOps0 (W0 m ρ c) (Proc.devRef .tc main_arg13) = _
  after_results_simp <;> rfl
theorem w1_arg14 : W1 m ρ c (Proc.devRef .tc main_arg14) = m ((c.tc : Thread nD τ).loc main_arg14) := by
  show StableHlo.after hostOps0 (W0 m ρ c) (Proc.devRef .tc main_arg14) = _
  after_results_simp <;> rfl
theorem w1_arg15 : W1 m ρ c (Proc.devRef .tc main_arg15) = m ((c.tc : Thread nD τ).loc main_arg15) := by
  show StableHlo.after hostOps0 (W0 m ρ c) (Proc.devRef .tc main_arg15) = _
  after_results_simp <;> rfl
theorem w1_arg17 : W1 m ρ c (Proc.devRef .tc main_arg17) = m ((c.tc : Thread nD τ).loc main_arg17) := by
  show StableHlo.after hostOps0 (W0 m ρ c) (Proc.devRef .tc main_arg17) = _
  after_results_simp <;> rfl
theorem w2_arg0 : W2 m ρ c (Proc.devRef .tc main_arg0) = m ((c.tc : Thread nD τ).loc main_arg0) :=
  (W2_of_ne m ρ c main_arg0 (by decide)).trans (w1_arg0 m ρ c)
theorem w2_arg1 : W2 m ρ c (Proc.devRef .tc main_arg1) = m ((c.tc : Thread nD τ).loc main_arg1) :=
  ((W2_arr m ρ c 1).trans (((dat0 (V1 m ρ) c).arrAt_in 1 rfl _).trans (A_eq0 (V1 m ρ) c 1))).trans (w1_arg1 m ρ c)
theorem w2_arg5 : W2 m ρ c (Proc.devRef .tc main_arg5) = m ((c.tc : Thread nD τ).loc main_arg5) :=
  (W2_of_ne m ρ c main_arg5 (by decide)).trans (w1_arg5 m ρ c)
theorem w2_arg6 : W2 m ρ c (Proc.devRef .tc main_arg6) = m ((c.tc : Thread nD τ).loc main_arg6) :=
  (W2_of_ne m ρ c main_arg6 (by decide)).trans (w1_arg6 m ρ c)
theorem w2_arg7 : W2 m ρ c (Proc.devRef .tc main_arg7) = m ((c.tc : Thread nD τ).loc main_arg7) :=
  (W2_of_ne m ρ c main_arg7 (by decide)).trans (w1_arg7 m ρ c)
theorem w2_arg11 : W2 m ρ c (Proc.devRef .tc main_arg11) = m ((c.tc : Thread nD τ).loc main_arg11) :=
  (W2_of_ne m ρ c main_arg11 (by decide)).trans (w1_arg11 m ρ c)
theorem w2_arg12 : W2 m ρ c (Proc.devRef .tc main_arg12) = m ((c.tc : Thread nD τ).loc main_arg12) :=
  (W2_of_ne m ρ c main_arg12 (by decide)).trans (w1_arg12 m ρ c)
theorem w2_arg13 : W2 m ρ c (Proc.devRef .tc main_arg13) = m ((c.tc : Thread nD τ).loc main_arg13) :=
  (W2_of_ne m ρ c main_arg13 (by decide)).trans (w1_arg13 m ρ c)
theorem w2_arg14 : W2 m ρ c (Proc.devRef .tc main_arg14) = m ((c.tc : Thread nD τ).loc main_arg14) :=
  (W2_of_ne m ρ c main_arg14 (by decide)).trans (w1_arg14 m ρ c)
theorem w2_arg15 : W2 m ρ c (Proc.devRef .tc main_arg15) = m ((c.tc : Thread nD τ).loc main_arg15) :=
  (W2_of_ne m ρ c main_arg15 (by decide)).trans (w1_arg15 m ρ c)
theorem w2_arg17 : W2 m ρ c (Proc.devRef .tc main_arg17) = m ((c.tc : Thread nD τ).loc main_arg17) :=
  (W2_of_ne m ρ c main_arg17 (by decide)).trans (w1_arg17 m ρ c)
theorem w3_arg11 : W3 m ρ c (Proc.devRef .tc main_arg11) = m ((c.tc : Thread nD τ).loc main_arg11) := by
  show StableHlo.after hostOps1 (W2 m ρ c) (Proc.devRef .tc main_arg11) = _
  after_results_simp <;> exact w2_arg11 m ρ c
theorem w3_arg12 : W3 m ρ c (Proc.devRef .tc main_arg12) = m ((c.tc : Thread nD τ).loc main_arg12) := by
  show StableHlo.after hostOps1 (W2 m ρ c) (Proc.devRef .tc main_arg12) = _
  after_results_simp <;> exact w2_arg12 m ρ c
theorem w3_arg13 : W3 m ρ c (Proc.devRef .tc main_arg13) = m ((c.tc : Thread nD τ).loc main_arg13) := by
  show StableHlo.after hostOps1 (W2 m ρ c) (Proc.devRef .tc main_arg13) = _
  after_results_simp <;> exact w2_arg13 m ρ c
theorem w3_arg14 : W3 m ρ c (Proc.devRef .tc main_arg14) = m ((c.tc : Thread nD τ).loc main_arg14) := by
  show StableHlo.after hostOps1 (W2 m ρ c) (Proc.devRef .tc main_arg14) = _
  after_results_simp <;> exact w2_arg14 m ρ c
theorem w3_arg15 : W3 m ρ c (Proc.devRef .tc main_arg15) = m ((c.tc : Thread nD τ).loc main_arg15) := by
  show StableHlo.after hostOps1 (W2 m ρ c) (Proc.devRef .tc main_arg15) = _
  after_results_simp <;> exact w2_arg15 m ρ c
theorem w3_arg17 : W3 m ρ c (Proc.devRef .tc main_arg17) = m ((c.tc : Thread nD τ).loc main_arg17) := by
  show StableHlo.after hostOps1 (W2 m ρ c) (Proc.devRef .tc main_arg17) = _
  after_results_simp <;> exact w2_arg17 m ρ c
theorem w4_arg11 : W4 m ρ c (Proc.devRef .tc main_arg11) = m ((c.tc : Thread nD τ).loc main_arg11) :=
  (W4_of_ne m ρ c main_arg11 (by decide)).trans (w3_arg11 m ρ c)
theorem w4_arg12 : W4 m ρ c (Proc.devRef .tc main_arg12) = m ((c.tc : Thread nD τ).loc main_arg12) :=
  (W4_of_ne m ρ c main_arg12 (by decide)).trans (w3_arg12 m ρ c)
theorem w4_arg13 : W4 m ρ c (Proc.devRef .tc main_arg13) = m ((c.tc : Thread nD τ).loc main_arg13) :=
  (W4_of_ne m ρ c main_arg13 (by decide)).trans (w3_arg13 m ρ c)
theorem w4_arg14 : W4 m ρ c (Proc.devRef .tc main_arg14) = m ((c.tc : Thread nD τ).loc main_arg14) :=
  (W4_of_ne m ρ c main_arg14 (by decide)).trans (w3_arg14 m ρ c)
theorem w4_arg15 : W4 m ρ c (Proc.devRef .tc main_arg15) = m ((c.tc : Thread nD τ).loc main_arg15) :=
  (W4_of_ne m ρ c main_arg15 (by decide)).trans (w3_arg15 m ρ c)
theorem w4_arg17 : W4 m ρ c (Proc.devRef .tc main_arg17) = m ((c.tc : Thread nD τ).loc main_arg17) :=
  (W4_of_ne m ρ c main_arg17 (by decide)).trans (w3_arg17 m ρ c)

/-! ## What each call is entered with -/

/-- A bias vector recast as a one-row matrix, read along its row. -/
theorem row128 (b : FVec Ideal S128 .f32) :
    (fun q : Fin 128 => shapeCast S1x128 b shapeCasts_S128_S1x128 (ix2 (0 : Fin 1) q)) = fun q => b (ix1 q) :=
  funext fun q => shapeCast_a_1a_apply b _ 0 q
theorem row16 (b : FVec Ideal S16 .f32) :
    (fun q : Fin 16 => shapeCast S1x16 b shapeCasts_S16_S1x16 (ix2 (0 : Fin 1) q)) = fun q => b (ix1 q) :=
  funext fun q => shapeCast_a_1a_apply b _ 0 q

/-- The first call: the means of the source features along the source-to-target edges, the bias as a row. -/
theorem v1_v24 : V1 m ρ c main_v24 = gm (m ((c.tc : Thread nD τ).loc main_arg0)) (m ((c.tc : Thread nD τ).loc main_arg16)) := by
  show StableHlo.after hostOps0 (W0 m ρ c) (Proc.devRef .tc main_v24) = _
  after_results_simp <;> rfl
theorem v1_v25 : V1 m ρ c main_v25 = shapeCast S1x128 (m ((c.tc : Thread nD τ).loc main_arg3)) shapeCasts_S128_S1x128 := by
  show StableHlo.after hostOps0 (W0 m ρ c) (Proc.devRef .tc main_v25) = _
  after_results_simp <;> rfl
theorem v1_arg1 : V1 m ρ c main_arg1 = m ((c.tc : Thread nD τ).loc main_arg1) := w1_arg1 m ρ c
theorem v1_arg2 : V1 m ρ c main_arg2 = m ((c.tc : Thread nD τ).loc main_arg2) := w1_arg2 m ρ c
theorem v1_arg4 : V1 m ρ c main_arg4 = m ((c.tc : Thread nD τ).loc main_arg4) := w1_arg4 m ρ c

/-- The first call's output: the target side's first layer. -/
theorem layer0 : Region0.layer (V1 m ρ) c
    = dense (n := 50000) (gm (m ((c.tc : Thread nD τ).loc main_arg0)) (m ((c.tc : Thread nD τ).loc main_arg16))) (m ((c.tc : Thread nD τ).loc main_arg1)) (m ((c.tc : Thread nD τ).loc main_arg2)) (m ((c.tc : Thread nD τ).loc main_arg4)) (fun q => m ((c.tc : Thread nD τ).loc main_arg3) (ix1 q)) := by
  unfold Region0.layer
  rw [v1_v24, v1_v25, v1_arg1, v1_arg2, v1_arg4, row128]

/-- The second call: the means of the target features along the target-to-source edges. -/
theorem v3_v51 : V3 m ρ c main_v51 = gm (m ((c.tc : Thread nD τ).loc main_arg1)) (m ((c.tc : Thread nD τ).loc main_arg17)) := by
  show StableHlo.after hostOps1 (W2 m ρ c) (Proc.devRef .tc main_v51) = _
  after_results_simp
  rw [w2_arg1, w2_arg17]
  rfl
theorem v3_v52 : V3 m ρ c main_v52 = shapeCast S1x128 (m ((c.tc : Thread nD τ).loc main_arg6)) shapeCasts_S128_S1x128 := by
  show StableHlo.after hostOps1 (W2 m ρ c) (Proc.devRef .tc main_v52) = _
  after_results_simp
  rw [w2_arg6]
  rfl
theorem v3_arg0 : V3 m ρ c main_arg0 = m ((c.tc : Thread nD τ).loc main_arg0) := by
  show StableHlo.after hostOps1 (W2 m ρ c) (Proc.devRef .tc main_arg0) = _
  after_results_simp <;> exact w2_arg0 m ρ c
theorem v3_arg5 : V3 m ρ c main_arg5 = m ((c.tc : Thread nD τ).loc main_arg5) := by
  show StableHlo.after hostOps1 (W2 m ρ c) (Proc.devRef .tc main_arg5) = _
  after_results_simp <;> exact w2_arg5 m ρ c
theorem v3_arg7 : V3 m ρ c main_arg7 = m ((c.tc : Thread nD τ).loc main_arg7) := by
  show StableHlo.after hostOps1 (W2 m ρ c) (Proc.devRef .tc main_arg7) = _
  after_results_simp <;> exact w2_arg7 m ρ c

/-- The second call's output: the source side's first layer. -/
theorem layer1 : Region1.layer (V3 m ρ) c
    = dense (n := 50000) (gm (m ((c.tc : Thread nD τ).loc main_arg1)) (m ((c.tc : Thread nD τ).loc main_arg17))) (m ((c.tc : Thread nD τ).loc main_arg0)) (m ((c.tc : Thread nD τ).loc main_arg5)) (m ((c.tc : Thread nD τ).loc main_arg7)) (fun q => m ((c.tc : Thread nD τ).loc main_arg6) (ix1 q)) := by
  unfold Region1.layer
  rw [v3_v51, v3_v52, v3_arg0, v3_arg5, v3_arg7, row128]

/-- The first call's output array is still there when the third call is entered … -/
theorem w4_v26 : W4 m ρ c (Proc.devRef .tc main_v26) = Region0.layer (V1 m ρ) c := by
  refine (W4_of_ne m ρ c main_v26 (by decide)).trans ?_
  show StableHlo.after hostOps1 (W2 m ρ c) (Proc.devRef .tc main_v26) = _
  after_results_simp
  exact (W2_arr m ρ c 5).trans (Region0.final (V1 m ρ) c)
/-- … and so is the second call's. -/
theorem w4_v53 : W4 m ρ c (Proc.devRef .tc main_v53) = Region1.layer (V3 m ρ) c :=
  (W4_arr m ρ c 5).trans (Region1.final (V3 m ρ) c)

/-- The third call: the means of the first call's output along the target-to-source edges, beside the second
    call's output. -/
theorem v5_v78 : V5 m ρ c main_v78 = gm (Region0.layer (V1 m ρ) c) (m ((c.tc : Thread nD τ).loc main_arg17)) := by
  show StableHlo.after hostOps2 (W4 m ρ c) (Proc.devRef .tc main_v78) = _
  after_results_simp
  rw [w4_v26, w4_arg17]
  rfl
theorem v5_v53 : V5 m ρ c main_v53 = Region1.layer (V3 m ρ) c := by
  show StableHlo.after hostOps2 (W4 m ρ c) (Proc.devRef .tc main_v53) = _
  after_results_simp <;> exact w4_v53 m ρ c
theorem v5_v79 : V5 m ρ c main_v79 = shapeCast S1x128 (m ((c.tc : Thread nD τ).loc main_arg12)) shapeCasts_S128_S1x128 := by
  show StableHlo.after hostOps2 (W4 m ρ c) (Proc.devRef .tc main_v79) = _
  after_results_simp
  rw [w4_arg12]
  rfl
theorem v5_v80 : V5 m ρ c main_v80 = shapeCast S1x16 (m ((c.tc : Thread nD τ).loc main_arg15)) shapeCasts_S16_S1x16 := by
  show StableHlo.after hostOps2 (W4 m ρ c) (Proc.devRef .tc main_v80) = _
  after_results_simp
  rw [w4_arg15]
  rfl
theorem v5_arg11 : V5 m ρ c main_arg11 = m ((c.tc : Thread nD τ).loc main_arg11) := by
  show StableHlo.after hostOps2 (W4 m ρ c) (Proc.devRef .tc main_arg11) = _
  after_results_simp <;> exact w4_arg11 m ρ c
theorem v5_arg13 : V5 m ρ c main_arg13 = m ((c.tc : Thread nD τ).loc main_arg13) := by
  show StableHlo.after hostOps2 (W4 m ρ c) (Proc.devRef .tc main_arg13) = _
  after_results_simp <;> exact w4_arg13 m ρ c
theorem v5_arg14 : V5 m ρ c main_arg14 = m ((c.tc : Thread nD τ).loc main_arg14) := by
  show StableHlo.after hostOps2 (W4 m ρ c) (Proc.devRef .tc main_arg14) = _
  after_results_simp <;> exact w4_arg14 m ρ c

/-- The result array: the network over the host's neighbourhood means, of the launch contents of the arguments. -/
theorem out_eq : (dat2 (V5 m ρ) c).arrAt 7 cfg2.N
    = net gm (m ((c.tc : Thread nD τ).loc main_arg0)) (m ((c.tc : Thread nD τ).loc main_arg1))
        (m ((c.tc : Thread nD τ).loc main_arg2)) (m ((c.tc : Thread nD τ).loc main_arg4))
        (m ((c.tc : Thread nD τ).loc main_arg5)) (m ((c.tc : Thread nD τ).loc main_arg7))
        (m ((c.tc : Thread nD τ).loc main_arg11)) (m ((c.tc : Thread nD τ).loc main_arg13))
        (fun q => m ((c.tc : Thread nD τ).loc main_arg3) (ix1 q)) (fun q => m ((c.tc : Thread nD τ).loc main_arg6) (ix1 q))
        (fun q => m ((c.tc : Thread nD τ).loc main_arg12) (ix1 q))
        (m ((c.tc : Thread nD τ).loc main_arg14)) (fun q => m ((c.tc : Thread nD τ).loc main_arg15) (ix1 q))
        (m ((c.tc : Thread nD τ).loc main_arg16)) (m ((c.tc : Thread nD τ).loc main_arg17)) := by
  rw [Region2.final]
  unfold Region2.layer Region2.hidden net
  rw [v5_v78, v5_v53, v5_v79, v5_v80, v5_arg11, v5_arg13, v5_arg14, layer0, layer1, row128, row16]

end Cert.KernelIdeal.Host

end
-- ==== Proof.LibBcastChain.lean ====
/-
  A vector spread over a matrix by two `broadcast_in_dim`s, read at an index.

  jnp spreads a per-row vector `d : [n]` over an `[n, c]` array as `[n] → [n,1]` (dims = [0]) then `[n,1] → [n,c]`
  (dims = [0,1]), and a per-column vector `b : [c]` as `[c] → [1,c]` (dims = [1]) then `[1,c] → [n,c]` (dims = [0,1]).
  Read at `(p, q)` the first is `d[p]` and the second `b[q]`; a scalar spread over any shape (dims = []) reads the scalar
  everywhere. Stated over literal-extent index constructors, for any extents (a unit extent included).
-/
import Idealize.ShloMosaic.Lib.Pipeline.Value
import Idealize.ShloMosaic.Lib.ValueIdx

noncomputable section

namespace Cert.Lib.BcastChain

open Idealize.ShloMosaic Idealize.ShloMosaic.ValueIdx

variable {α : Type}

/-- A vector spread over the columns by `[n] → [n,1] → [n,c]` reads, at `(p, q)`, its entry `p`. -/
theorem overCols_apply {n c : ℕ} (d : (⟨1, ![n]⟩ : Shape).Idx → α)
    (h1 : (⟨1, ![n]⟩ : Shape).BroadcastsInDim ⟨2, ![n, 1]⟩ ![0])
    (h2 : (⟨2, ![n, 1]⟩ : Shape).BroadcastsInDim ⟨2, ![n, c]⟩ ![0, 1]) (p : Fin n) (q : Fin c) :
    broadcastInDim ⟨2, ![n, c]⟩ ![0, 1] h2 (broadcastInDim ⟨2, ![n, 1]⟩ ![0] h1 d) (ix2 p q) = d (ix1 p) := by
  rw [broadcastInDim_apply ![0, 1] h2 _ (ix2 p q) (ix2 p (0 : Fin 1)) (fun a => by
    match a with
    | ⟨0, _⟩ =>
      show p.val = if n = 1 then 0 else p.val
      split
      · have := p.isLt; omega
      · rfl
    | ⟨1, _⟩ => show 0 = if (1 : ℕ) = 1 then 0 else q.val; rw [if_pos rfl])]
  exact broadcastInDim_apply ![0] h1 d (ix2 p (0 : Fin 1)) (ix1 p) (fun a => by
    match a with
    | ⟨0, _⟩ =>
      show p.val = if n = 1 then 0 else p.val
      split
      · have := p.isLt; omega
      · rfl)

/-- A vector spread over the rows by `[c] → [1,c] → [n,c]` reads, at `(p, q)`, its entry `q`. -/
theorem overRows_apply {n c : ℕ} (b : (⟨1, ![c]⟩ : Shape).Idx → α)
    (h3 : (⟨1, ![c]⟩ : Shape).BroadcastsInDim ⟨2, ![1, c]⟩ ![1])
    (h4 : (⟨2, ![1, c]⟩ : Shape).BroadcastsInDim ⟨2, ![n, c]⟩ ![0, 1]) (p : Fin n) (q : Fin c) :
    broadcastInDim ⟨2, ![n, c]⟩ ![0, 1] h4 (broadcastInDim ⟨2, ![1, c]⟩ ![1] h3 b) (ix2 p q) = b (ix1 q) := by
  rw [broadcastInDim_apply ![0, 1] h4 _ (ix2 p q) (ix2 (0 : Fin 1) q) (fun a => by
    match a with
    | ⟨0, _⟩ => show 0 = if (1 : ℕ) = 1 then 0 else p.val; rw [if_pos rfl]
    | ⟨1, _⟩ =>
      show q.val = if c = 1 then 0 else q.val
      split
      · have := q.isLt; omega
      · rfl)]
  exact broadcastInDim_apply ![1] h3 b (ix2 (0 : Fin 1) q) (ix1 q) (fun a => by
    match a with
    | ⟨0, _⟩ =>
      show q.val = if c = 1 then 0 else q.val
      split
      · have := q.isLt; omega
      · rfl)

/-- A scalar spread over any shape reads the scalar everywhere. -/
theorem overAll_apply {t : Shape} (x : (⟨0, ![]⟩ : Shape).Idx → α) (dims : Fin 0 → Fin t.rank)
    (h : (⟨0, ![]⟩ : Shape).BroadcastsInDim t dims) (j : t.Idx) : broadcastInDim t dims h x j = x ix0 :=
  broadcastInDim_apply dims h x j ix0 (fun a => a.elim0)

end Cert.Lib.BcastChain

end
-- ==== Proof.RefNet.lean ====
/-
  The reference, read as the network of `Sage`.

  The reference computes, for each of its three live layers, the neighbourhood means on the host (a gather of the
  source rows along the edges, a scatter-add into the destination rows, a division by the clamped in-degree: `gm`),
  two `dot_general`s, the bias spread over the rows and added BEFORE the second product, and the leaky rectifier as a
  compare, a multiply and a select; then the projection with its bias spread over the rows. Entry by entry these are
  `Sage.denseBiasFirst` — hence `Sage.dense` — and `Sage.project`; the means are left as the host operations spell them.
-/
import proofs.«119524_j9706626089208_1_alg».proof.Proof.Gen.ReferenceIdeal.Run
import proofs.«119524_j9706626089208_1_alg».proof.Proof.Layer
import proofs.«119524_j9706626089208_1_alg».proof.Proof.LibBcastChain
import Idealize.ShloMosaic.Lib.ValueIdx
import Idealize.ShloMosaic.PureOps.Ideal.Laws

set_option maxRecDepth 16384

noncomputable section

namespace Cert.ReferenceIdeal.Net

open Cert.ReferenceIdeal Cert.ReferenceIdeal.Gen Cert.ReferenceIdeal.Value
open Idealize.ShloMosaic Idealize.ShloMosaic.TcCoe Idealize.SL.Sem Idealize.ShloMosaic.ValueIdx
open Cert.Lib.PlainDot Cert.Lib.BcastChain Cert.Sage

/-- The neighbourhood means as the host computes them: the rows of `x` gathered at the edges' sources (a negative
    index wrapped once), scatter-added into the edges' destinations from zero, and divided by the in-degree (a
    scatter-add of ones) clamped below at one. -/
def gm (x : FVec Ideal S50000x128 .f32) (e : IVec S2x500000 32) : FVec Ideal S50000x128 .f32 :=
  Host.divf (F := Ideal) (Host.scatterAdd scatter_S50000x128_S500000x1_S500000x128_1_0_0_1 (broadcastInDim S50000x128 ![] bcast_S_S50000x128 (constant S_ .f32 0x00000000#32)) (broadcastInDim S500000x1 ![0] bcast_S500000_S500000x1_0 (shapeCast _ (extractStridedSlice S1x500000 ![1, 0] e slices_S2x500000_S1x500000_1_0) shapeCasts_S1x500000_S500000)) (Host.gather gather_S50000x128_S500000x1_S500000x128_1_0_n_n_0_1_1128 x (broadcastInDim S500000x1 ![0] bcast_S500000_S500000x1_0 (select (cmpi .slt (shapeCast _ (extractStridedSlice S1x500000 ![0, 0] e slices_S2x500000_S1x500000_0_0) shapeCasts_S1x500000_S500000) (broadcastInDim S500000 ![] bcast_S_S500000 (constantI S_ 32 0#32))) (addi (shapeCast _ (extractStridedSlice S1x500000 ![0, 0] e slices_S2x500000_S1x500000_0_0) shapeCasts_S1x500000_S500000) (broadcastInDim S500000 ![] bcast_S_S500000 (constantI S_ 32 50000#32))) (shapeCast _ (extractStridedSlice S1x500000 ![0, 0] e slices_S2x500000_S1x500000_0_0) shapeCasts_S1x500000_S500000))))) (broadcastInDim S50000x128 ![0, 1] bcast_S50000x1_S50000x128_0_1 (broadcastInDim S50000x1 ![0] bcast_S50000_S50000x1_0 (maximumf (Host.scatterAdd scatter_S50000_S500000x1_S500000_n_0_0_1 (broadcastInDim S50000 ![] bcast_S_S50000 (constant S_ .f32 0x00000000#32)) (broadcastInDim S500000x1 ![0] bcast_S500000_S500000x1_0 (shapeCast _ (extractStridedSlice S1x500000 ![1, 0] e slices_S2x500000_S1x500000_1_0) shapeCasts_S1x500000_S500000)) (broadcastInDim S500000 ![] bcast_S_S500000 (constant S_ .f32 0x3F800000#32))) (broadcastInDim S50000 ![] bcast_S_S50000 (constant S_ .f32 0x3F800000#32)))))

/-- The host's spelling of the means, folded into its name. -/
theorem gm_eq (x : FVec Ideal S50000x128 .f32) (e : IVec S2x500000 32) :
    Host.divf (F := Ideal) (Host.scatterAdd scatter_S50000x128_S500000x1_S500000x128_1_0_0_1 (broadcastInDim S50000x128 ![] bcast_S_S50000x128 (constant S_ .f32 0x00000000#32)) (broadcastInDim S500000x1 ![0] bcast_S500000_S500000x1_0 (shapeCast _ (extractStridedSlice S1x500000 ![1, 0] e slices_S2x500000_S1x500000_1_0) shapeCasts_S1x500000_S500000)) (Host.gather gather_S50000x128_S500000x1_S500000x128_1_0_n_n_0_1_1128 x (broadcastInDim S500000x1 ![0] bcast_S500000_S500000x1_0 (select (cmpi .slt (shapeCast _ (extractStridedSlice S1x500000 ![0, 0] e slices_S2x500000_S1x500000_0_0) shapeCasts_S1x500000_S500000) (broadcastInDim S500000 ![] bcast_S_S500000 (constantI S_ 32 0#32))) (addi (shapeCast _ (extractStridedSlice S1x500000 ![0, 0] e slices_S2x500000_S1x500000_0_0) shapeCasts_S1x500000_S500000) (broadcastInDim S500000 ![] bcast_S_S500000 (constantI S_ 32 50000#32))) (shapeCast _ (extractStridedSlice S1x500000 ![0, 0] e slices_S2x500000_S1x500000_0_0) shapeCasts_S1x500000_S500000))))) (broadcastInDim S50000x128 ![0, 1] bcast_S50000x1_S50000x128_0_1 (broadcastInDim S50000x1 ![0] bcast_S50000_S50000x1_0 (maximumf (Host.scatterAdd scatter_S50000_S500000x1_S500000_n_0_0_1 (broadcastInDim S50000 ![] bcast_S_S50000 (constant S_ .f32 0x00000000#32)) (broadcastInDim S500000x1 ![0] bcast_S500000_S500000x1_0 (shapeCast _ (extractStridedSlice S1x500000 ![1, 0] e slices_S2x500000_S1x500000_1_0) shapeCasts_S1x500000_S500000)) (broadcastInDim S500000 ![] bcast_S_S500000 (constant S_ .f32 0x3F800000#32))) (broadcastInDim S50000 ![] bcast_S_S50000 (constant S_ .f32 0x3F800000#32))))) = gm x e := rfl

/-- One layer as the host spells it — two products, the bias row spread and added before the second product, the
    leaky rectifier by compare, multiply and select — is `Sage.dense`. -/
theorem host_dense (a x : FVec Ideal S50000x128 .f32) (Wl Wr : FVec Ideal S128x128 .f32) (b : FVec Ideal S128 .f32) :
    select (cmpf .ogt (addf (addf (Host.dotGeneral dot_S50000x128_S128x128_S50000x128_1_0_0_1_n_n none a Wl) (broadcastInDim S50000x128 ![0, 1] bcast_S1x128_S50000x128_0_1 (broadcastInDim S1x128 ![1] bcast_S128_S1x128_1 b))) (Host.dotGeneral dot_S50000x128_S128x128_S50000x128_1_0_0_1_n_n none x Wr)) (broadcastInDim S50000x128 ![] bcast_S_S50000x128 (constant S_ .f32 0x00000000#32)))
        (addf (addf (Host.dotGeneral dot_S50000x128_S128x128_S50000x128_1_0_0_1_n_n none a Wl) (broadcastInDim S50000x128 ![0, 1] bcast_S1x128_S50000x128_0_1 (broadcastInDim S1x128 ![1] bcast_S128_S1x128_1 b))) (Host.dotGeneral dot_S50000x128_S128x128_S50000x128_1_0_0_1_n_n none x Wr))
        (mulf (broadcastInDim S50000x128 ![] bcast_S_S50000x128 (constant S_ .f32 0x3C23D70A#32)) (addf (addf (Host.dotGeneral dot_S50000x128_S128x128_S50000x128_1_0_0_1_n_n none a Wl) (broadcastInDim S50000x128 ![0, 1] bcast_S1x128_S50000x128_0_1 (broadcastInDim S1x128 ![1] bcast_S128_S1x128_1 b))) (Host.dotGeneral dot_S50000x128_S128x128_S50000x128_1_0_0_1_n_n none x Wr)))
      = dense (n := 50000) a x Wl Wr (fun q => b (ix1 q)) := by
  rw [← denseBiasFirst_eq]
  funext j
  obtain ⟨p, q, rfl⟩ : ∃ (p : Fin 50000) (q : Fin 128), j = ix2 p q := ⟨j 0, j 1, eq_ix2 j⟩
  simp only [Host.dotGeneral, select_apply, cmpf_apply, mulf_apply, addf_apply]
  rw [dotGeneral_eq dot_S50000x128_S128x128_S50000x128_1_0_0_1_n_n rfl, dotGeneral_eq dot_S50000x128_S128x128_S50000x128_1_0_0_1_n_n rfl,
    overRows_apply, overAll_apply, overAll_apply]
  rfl

/-- The projection as the host spells it — a product and the bias row spread over the rows — is `Sage.project`. -/
theorem host_project (h : FVec Ideal S50000x128 .f32) (W : FVec Ideal S128x16 .f32) (b : FVec Ideal S16 .f32) :
    addf (Host.dotGeneral dot_S50000x128_S128x16_S50000x16_1_0_0_1_n_n none h W) (broadcastInDim S50000x16 ![0, 1] bcast_S1x16_S50000x16_0_1 (broadcastInDim S1x16 ![1] bcast_S16_S1x16_1 b))
      = project (n := 50000) h W (fun q => b (ix1 q)) := by
  funext j
  obtain ⟨p, q, rfl⟩ : ∃ (p : Fin 50000) (q : Fin 16), j = ix2 p q := ⟨j 0, j 1, eq_ix2 j⟩
  simp only [Host.dotGeneral, addf_apply]
  rw [dotGeneral_eq dot_S50000x128_S128x16_S50000x16_1_0_0_1_n_n rfl, overRows_apply]
  rfl

/-- The reference's result is the network over the host's neighbourhood means, of the launch contents of its arguments. -/
theorem ref_eq (m : (ℓ : Loc nD τ sig) → Buf (Elt Ideal) ℓ) (c : Dev nD) :
    res_main_v147 (F := Ideal) m c
      = net gm (m ((c.tc : Thread nD τ).loc main_arg0)) (m ((c.tc : Thread nD τ).loc main_arg1))
          (m ((c.tc : Thread nD τ).loc main_arg2)) (m ((c.tc : Thread nD τ).loc main_arg4))
          (m ((c.tc : Thread nD τ).loc main_arg5)) (m ((c.tc : Thread nD τ).loc main_arg7))
          (m ((c.tc : Thread nD τ).loc main_arg11)) (m ((c.tc : Thread nD τ).loc main_arg13))
          (fun q => m ((c.tc : Thread nD τ).loc main_arg3) (ix1 q)) (fun q => m ((c.tc : Thread nD τ).loc main_arg6) (ix1 q))
          (fun q => m ((c.tc : Thread nD τ).loc main_arg12) (ix1 q))
          (m ((c.tc : Thread nD τ).loc main_arg14)) (fun q => m ((c.tc : Thread nD τ).loc main_arg15) (ix1 q))
          (m ((c.tc : Thread nD τ).loc main_arg16)) (m ((c.tc : Thread nD τ).loc main_arg17)) := by
  unfold res_main_v147 net
  rw [host_project]
  rw [host_dense, host_dense, host_dense, gm_eq, gm_eq, gm_eq]

end Cert.ReferenceIdeal.Net

end
-- ==== Proof.lean ====
/-
  A two-layer heterogeneous message-passing network with a linear head: the Pallas kernel against its jnp reference.

  Both programs compute, for source and target nodes `xs`, `xt` and the two edge lists, first layers
  `xt' = leaky (mean_st(xs) · Wl + xt · Wr + b)` and `xs' = leaky (mean_ts(xt) · Wl' + xs · Wr' + b')`, the source side's
  second layer over `xt'` and `xs'`, and its projection on a `128 × 16` head plus a bias. The neighbourhood means are
  computed on the host by the same operations in both programs. The kernel does each layer in a pallas_call over ten
  blocks of 5000 rows, with its matrix operands rounded to bf16 — the identity on the extended reals — and adds the
  bias after the second product where the reference adds it before: addition of extended reals is commutative and
  associative, so no finiteness is needed and the precondition is never opened.

  The pieces: `Sage` (Proof/Layer.lean) is the mathematics; Proof/Payload.lean reads the kernel bodies;
  Proof/Region0–2.lean assemble each call's blocks into its output array; Proof/KernelHost.lean walks the host
  stretches between the calls; Proof/KernelRun.lean is the kernel's run with its result named; Proof/RefNet.lean
  reads the reference's run. The three frames are the generated ones; the ideal pass rewrote nothing.
-/
import proofs.«119524_j9706626089208_1_alg».proof.Defs
import proofs.«119524_j9706626089208_1_alg».proof.Proof.Gen.Kernel
import proofs.«119524_j9706626089208_1_alg».proof.Proof.Gen.Kernel.Frame
import proofs.«119524_j9706626089208_1_alg».proof.Proof.Gen.KernelIdeal
import proofs.«119524_j9706626089208_1_alg».proof.Proof.Gen.KernelIdeal.Frame
import proofs.«119524_j9706626089208_1_alg».proof.Proof.Gen.ReferenceIdeal
import proofs.«119524_j9706626089208_1_alg».proof.Proof.Gen.ReferenceIdeal.Run
import proofs.«119524_j9706626089208_1_alg».proof.Proof.Gen.Pre_finite_inputs
import proofs.«119524_j9706626089208_1_alg».proof.Proof.KernelRun
import proofs.«119524_j9706626089208_1_alg».proof.Proof.KernelHost
import proofs.«119524_j9706626089208_1_alg».proof.Proof.RefNet
import Idealize.ShloMosaic.Adequacy
import Idealize.ShloMosaic.Init

set_option maxRecDepth 16384

noncomputable section

namespace Cert.Proof

open Idealize.ShloMosaic Idealize.SL.Sem

/-- The word-level kernel runs and leaves its arguments as launched: the generated frame. -/
theorem frame_kernel : Cert.frame_Kernel := fun m ρ _ => Cert.Kernel.Gen.frame m ρ
/-- So does the idealized kernel. -/
theorem frame_kernelIdeal : Cert.frame_KernelIdeal := fun m ρ _ => Cert.KernelIdeal.Gen.frame m ρ
/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- The two programs compute the neighbourhood means by the same host operations. -/
theorem gm_same : Cert.KernelIdeal.Host.gm = Cert.ReferenceIdeal.Net.gm := rfl

/-- From memories agreeing on the arguments both programs end with the network `Sage.net` of the arguments over the
    host's neighbourhood means in their result buffers. -/
theorem algebraic : Cert.algebraic_KernelIdeal_ReferenceIdeal := by
  intro m ρ m' ρ' _ hagree
  refine ⟨fun c => (Cert.KernelIdeal.Gen.dat2 (Cert.KernelIdeal.Gen.V5 m ρ) c).arrAt 7 Cert.KernelIdeal.cfg2.N,
    Cert.KernelIdeal.Run.run_out m ρ, ?_⟩
  refine (θ_run Cert.ReferenceIdeal.defs _ _).mono (fun _ h c => ⟨(h c).1.trans ?_, (h c).2⟩)
    (Cert.ReferenceIdeal.Value.run (F := Ideal) m' ρ')
  show Cert.ReferenceIdeal.Value.res_main_v147 m' c
    = (Cert.KernelIdeal.Gen.dat2 (Cert.KernelIdeal.Gen.V5 m ρ) c).arrAt 7 Cert.KernelIdeal.cfg2.N
  obtain ⟨h0, h1, h2, h3, h4, h5, h6, h7, h8, h9, h10, h11, h12, h13, h14, h15, h16, h17⟩ := hagree c
  rw [Cert.ReferenceIdeal.Net.ref_eq, Cert.KernelIdeal.Host.out_eq, gm_same, h0, h1, h2, h3, h4, h5, h6, h7, h11, h12, h13, h14, h15, h16, h17]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
